-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S1024x128 : Shape := ⟨2, ![1024, 128]⟩
abbrev S4x4096x64 : Shape := ⟨3, ![4, 4096, 64]⟩
abbrev S1x512x1024 : Shape := ⟨3, ![1, 512, 1024]⟩
abbrev S1x512x64 : Shape := ⟨3, ![1, 512, 64]⟩
abbrev S512x1024 : Shape := ⟨2, ![512, 1024]⟩
abbrev S512x128 : Shape := ⟨2, ![512, 128]⟩
abbrev S512x64 : Shape := ⟨2, ![512, 64]⟩
abbrev S1x128x1024 : Shape := ⟨3, ![1, 128, 1024]⟩
abbrev S1x4096x64 : Shape := ⟨3, ![1, 4096, 64]⟩
abbrev S1x128x64 : Shape := ⟨3, ![1, 128, 64]⟩
abbrev S128x1024 : Shape := ⟨2, ![128, 1024]⟩
abbrev S128x64 : Shape := ⟨2, ![128, 64]⟩
abbrev S4096x64 : Shape := ⟨2, ![4096, 64]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x128, .f32⟩
  | .hbm, ⟨5, _⟩ => ⟨S4x4096x64, .f32⟩
  | .hbm, ⟨6, _⟩ => ⟨S4x4096x64, .f32⟩
  | .hbm, ⟨7, _⟩ => ⟨S4x4096x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x128, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .f32⟩
  | .local _ .vmem, ⟨7, _⟩ => ⟨S1x128x1024, .f32⟩
  | .local _ .vmem, ⟨8, _⟩ => ⟨S1x128x1024, .f32⟩
  | .local _ .vmem, ⟨9, _⟩ => ⟨S1024x64, .f32⟩
  | .local _ .vmem, ⟨10, _⟩ => ⟨S1x4096x64, .f32⟩
  | .local _ .vmem, ⟨11, _⟩ => ⟨S1x4096x64, .f32⟩
  | .local _ .vmem, ⟨12, _⟩ => ⟨S1x4096x64, .f32⟩
  | .local _ .vmem, ⟨13, _⟩ => ⟨S1x4096x64, .f32⟩
  | .local _ .vmem, ⟨14, _⟩ => ⟨S1x128x64, .f32⟩
  | .local _ .vmem, ⟨15, _⟩ => ⟨S1x128x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  concatenates_S1024x64_S1024x64_S1024x128_d1 : Shape.Concatenates [S1024x64, S1024x64] S1024x128 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S512x128_o0_0_S512x64 : S512x128.Slices ![0, 0] S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  slices_S512x128_o0_64_S512x64 : S512x128.Slices ![0, 64] S512x64
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x64_S1024x64_0_0 : ∀ a, (![0, 0] : Fin 2 → Nat) a + S1024x64.size a ≤ S1024x64.size a
  h_S1024x64 : 0 < S1024x64.numel
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S128x4096_S128 : S128x4096.Reduces [1] S128
  shapeCasts_S128_S128x1 : S128.ShapeCasts S128x1
  broadcasts_S128x1_S128x4096 : S128x1.Broadcasts S128x4096
  broadcasts_S128x1_S128x64 : S128x1.Broadcasts S128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  dot_S512x1024_S1024x128_S512x128_1_0_0_1_n_n_wf : DotDims.WF S512x1024 S1024x128 S512x128 [1] [0] [0] [1] [] []
  dot_S128x1024_S1024x64_S128x64_1_0_0_1_n_n_wf : DotDims.WF S128x1024 S1024x64 S128x64 [1] [0] [0] [1] [] []
  dot_S128x64_S4096x64_S128x4096_1_1_0_0_n_n_wf : DotDims.WF S128x64 S4096x64 S128x4096 [1] [1] [0] [0] [] []
  dot_S128x4096_S4096x64_S128x64_1_0_0_1_n_n_wf : DotDims.WF S128x4096 S4096x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S4x4096x64.size a
  hwx0_2 : ∀ i : grid0.Coords, EltTy.bits .f32 = 32 ∨ (Rect.block (s := S4x4096x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x4096x64.size a
  hwx0_3 : ∀ i : grid0.Coords, EltTy.bits .f32 = 32 ∨ (Rect.block (s := S4x4096x64) S1x512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S4x4096x1024.size a
  hwx1_0 : ∀ i : grid1.Coords, EltTy.bits .f32 = 32 ∨ (Rect.block (s := S4x4096x1024) S1x128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .f32 = 32 ∨ (Rect.block (s := S4x4096x64) S1x4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x64.size a ≤ S4x4096x64.size a
  hwx1_3 : ∀ i : grid1.Coords, EltTy.bits .f32 = 32 ∨ (Rect.block (s := S4x4096x64) S1x4096x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x64.size a ≤ S4x4096x64.size a
  hwx1_4 : ∀ i : grid1.Coords, EltTy.bits .f32 = 32 ∨ (Rect.block (s := S4x4096x64) S1x128x64.size (cc1_transform_4 i) (hinb1_4 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x4096x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KRun.lean ====
/-
  The idealized kernel's run with its result array named.

  @main is a host concatenation, then two kernel regions. Along the run the buffers' contents are folded boundary by
  boundary: after the host stretch, after the first region's write-backs (the K and V arrays), after the second
  region's write-backs (the result). Every weakly fair execution terminates, nothing faults, the four argument arrays
  end as launched, and the result array ends at the last boundary's contents of its buffer.
-/
import proofs.«149646_j34445637714102_2_alg».proof.Proof.Gen.KernelIdeal.Frame

set_option maxRecDepth 16384

noncomputable section

namespace Cert.KernelIdeal.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the contents the fold
    gives its buffer after the second region, and the arguments end as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.AttnRun

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.KHost.lean ====
import proofs.«149646_j34445637714102_2_alg».proof.Proof.Gen.KernelIdeal.Frame
import proofs.«149646_j34445637714102_2_alg».proof.Proof.LibDense
import Idealize.ShloMosaic.Lib.StableHlo.Run

/-!
# The host stretch and the buffer contents at the region boundaries

Before its first region the program performs one host operation: it lays the two weight matrices
`Wk` and `Wv` (each 1024 × 64) side by side along axis 1 into one 1024 × 128 matrix.  This file
reads the buffers' contents at the entry of each region:

* at the entry of region 0 the input `x` is as launched, and the joined matrix read at column
  `h < 64` is `Wk` at column `h`, and at column `64 + h` is `Wv` at column `h`;
* at the entry of region 1 the inputs `x` and `Wq` are still as launched (region 0 reads `x`
  through an input window and does not touch `Wq`), and the two outputs of region 0 hold what its
  write-backs leave;
* at the exit of region 1 the program's result holds what region 1's write-backs leave.
-/

set_option maxRecDepth 16384

noncomputable section

namespace Cert.KernelIdeal.AttnHost

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (ρ : Dev nD → PrngReg)

/-- The host stretch writes only the joined matrix: any other buffer is as launched. -/
theorem W1_of_ne (c : Dev nD) (b : Ref sig .tc) (hb : main_v0 ≠ b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb.symm))

/-- At the entry of region 0 the input `x` is as launched. -/
theorem V1_arg0 (c : Dev nD) : V1 m ρ c main_arg0 = m ((c : Thread nD τ).loc main_arg0) :=
  W1_of_ne m ρ c main_arg0 (by decide)

/-- At the entry of region 0 the joined matrix is the concatenation of `Wk` and `Wv` along axis 1. -/
theorem V1_wkv (c : Dev nD) :
    (V1 m ρ c main_v0 : S1024x128.Idx → EReal)
      = concatenate S1024x128 1
          [⟨S1024x64, (m ((c : Thread nD τ).loc main_arg2) : S1024x64.Idx → EReal)⟩,
           ⟨S1024x64, (m ((c : Thread nD τ).loc main_arg3) : S1024x64.Idx → EReal)⟩]
          Facts₀.concatenates_S1024x64_S1024x64_S1024x128_d1 := by
  dsimp only [V1, W1, hostOps0]
  after_results

/-- The joined matrix at a column of its left half is `Wk` there. -/
theorem V1_wkv_left (c : Dev nD) (d : Fin 1024) (h : Fin 64) :
    (V1 m ρ c main_v0 : S1024x128.Idx → EReal) (ValueIdx.ix2 d (⟨h.val, by omega⟩ : Fin 128))
      = (m ((c : Thread nD τ).loc main_arg2) : S1024x64.Idx → EReal) (ValueIdx.ix2 d h) := by
  rw [V1_wkv m ρ c]
  refine (Cert.LibDense.concat_cols_apply (by norm_num : 64 + 64 = 128) _ _ _ d _).trans ?_
  rw [dif_pos (show (⟨h.val, by omega⟩ : Fin 128).val < 64 from h.isLt)]

/-- The joined matrix at a column of its right half is `Wv` at that column less 64. -/
theorem V1_wkv_right (c : Dev nD) (d : Fin 1024) (h : Fin 64) :
    (V1 m ρ c main_v0 : S1024x128.Idx → EReal) (ValueIdx.ix2 d (⟨64 + h.val, by omega⟩ : Fin 128))
      = (m ((c : Thread nD τ).loc main_arg3) : S1024x64.Idx → EReal) (ValueIdx.ix2 d h) := by
  rw [V1_wkv m ρ c]
  refine (Cert.LibDense.concat_cols_apply (by norm_num : 64 + 64 = 128) _ _ _ d _).trans ?_
  rw [dif_neg (show ¬ (⟨64 + h.val, by omega⟩ : Fin 128).val < 64 from by simp)]
  congr 1
  exact congrArg (ValueIdx.ix2 d) (Fin.ext (by simp))

/-- At the entry of region 1 the input `x` is as launched: region 0 only reads it. -/
theorem V2_arg0 (c : Dev nD) : V2 m ρ c main_arg0 = m ((c : Thread nD τ).loc main_arg0) :=
  calc W2 m ρ c (Proc.devRef .tc main_arg0)
    _ = W1 m ρ c (Proc.devRef .tc main_arg0) :=
        (W2_arr m ρ c 0).trans (((dat0 (V1 m ρ) c).arrAt_in 0 rfl _).trans (A_eq0 (V1 m ρ) c 0))
    _ = m ((c : Thread nD τ).loc main_arg0) := V1_arg0 m ρ c

/-- At the entry of region 1 the input `Wq` is as launched: neither the host stretch nor region 0 touches it. -/
theorem V2_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = m ((c : Thread nD τ).loc main_arg1) := W1_of_ne m ρ c main_arg1 (by decide)

/-- At the entry of region 1 the first output of region 0 holds what its write-backs leave. -/
theorem V2_k (c : Dev nD) : V2 m ρ c main_v1_0 = (dat0 (V1 m ρ) c).arrAt 2 cfg0.N :=
  W2_arr m ρ c 2

/-- At the entry of region 1 the second output of region 0 holds what its write-backs leave. -/
theorem V2_v (c : Dev nD) : V2 m ρ c main_v1_1 = (dat0 (V1 m ρ) c).arrAt 3 cfg0.N :=
  W2_arr m ρ c 3

/-- At the exit of region 1 the program's result holds what region 1's write-backs leave. -/
theorem W3_out (c : Dev nD) : W3 m ρ c (Proc.devRef .tc main_v2) = (dat1 (V2 m ρ) c).arrAt 4 cfg1.N :=
  W3_arr m ρ c 4

end Cert.KernelIdeal.AttnHost
-- ==== Proof.LibFinite.lean ====
import Idealize.ShloMosaic.PureOps.Ideal
import Idealize.ShloMosaic.PureOps.Ideal.Laws

/-!
# Finiteness of extended reals

General facts about the extended reals `EReal` used as idealized float values.

* `IsReal x` says that `x` is neither `⊤` nor `⊥`, that is, `x` is (the coercion of) a real number.
  It is closed under addition, subtraction, multiplication, negation, `max`, `min`, the absolute
  value `max x (-x)`, integer roundings extended to the infinities, finite sums, and suprema and
  infima over a nonempty finite type.  The sign of any extended real is real, clamping any extended
  real between two real bounds is real, and a quotient of reals by a nonzero real is real (and
  positive when both are positive).
* `a + (b - a) = b` for a real `a` and an arbitrary extended real `b`.
* The sign function written with two comparisons and two selections.
* The extended reals denoted by a few single-precision words.
* Folding `max` from `⊥` (resp. `min` from `⊤`) over a finite set is its supremum (resp. infimum).
-/

noncomputable section
namespace LibFinite
open Idealize.ShloMosaic

/-! ## Real (finite) extended reals -/

/-- An extended real is *real* when it is neither of the two infinities. -/
def IsReal (x : EReal) : Prop := x ≠ ⊤ ∧ x ≠ ⊥

/-- The coercion of a real number is real. -/
theorem IsReal.coe (r : ℝ) : IsReal (r : EReal) := ⟨EReal.coe_ne_top r, EReal.coe_ne_bot r⟩

theorem IsReal.zero : IsReal (0 : EReal) := by
  rw [← EReal.coe_zero]; exact IsReal.coe 0

theorem IsReal.one : IsReal (1 : EReal) := by
  rw [← EReal.coe_one]; exact IsReal.coe 1

/-- A real extended real is the coercion of some real number. -/
theorem IsReal.exists {x : EReal} (h : IsReal x) : ∃ r : ℝ, x = (r : EReal) := by
  induction x using EReal.rec with
  | bot => exact absurd rfl h.2
  | top => exact absurd rfl h.1
  | coe r => exact ⟨r, rfl⟩

theorem IsReal.add {x y : EReal} (hx : IsReal x) (hy : IsReal y) : IsReal (x + y) := by
  obtain ⟨a, rfl⟩ := hx.exists
  obtain ⟨b, rfl⟩ := hy.exists
  rw [← EReal.coe_add]; exact IsReal.coe _

theorem IsReal.sub {x y : EReal} (hx : IsReal x) (hy : IsReal y) : IsReal (x - y) := by
  obtain ⟨a, rfl⟩ := hx.exists
  obtain ⟨b, rfl⟩ := hy.exists
  rw [← EReal.coe_sub]; exact IsReal.coe _

theorem IsReal.mul {x y : EReal} (hx : IsReal x) (hy : IsReal y) : IsReal (x * y) := by
  obtain ⟨a, rfl⟩ := hx.exists
  obtain ⟨b, rfl⟩ := hy.exists
  rw [← EReal.coe_mul]; exact IsReal.coe _

theorem IsReal.neg {x : EReal} (hx : IsReal x) : IsReal (-x) := by
  obtain ⟨a, rfl⟩ := hx.exists
  rw [← EReal.coe_neg]; exact IsReal.coe _

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) :=
  IsReal.max hx hx.neg

/-- A rounding to the integers, extended by fixing the infinities, keeps reals real. -/
theorem IsReal.liftRound (f : ℝ → ℤ) {x : EReal} (hx : IsReal x) : IsReal (Ideal.liftRound f x) := by
  obtain ⟨a, rfl⟩ := hx.exists
  rw [Ideal.liftRound_coe]; exact IsReal.coe _

/-- The sign of any extended real is one of `-1`, `0`, `1`, hence real. -/
theorem IsReal.sign (x : EReal) : IsReal (Ideal.sign x) := by
  induction x using EReal.rec with
  | bot => rw [Ideal.sign_bot]; exact IsReal.one.neg
  | top => rw [Ideal.sign_top]; exact IsReal.one
  | coe r => rw [Ideal.sign_coe]; exact IsReal.coe _

/-- Clamping any extended real (an infinite one too) between two real bounds gives a real: the
    result is at most `hi`, and at least `min hi lo`. -/
theorem IsReal.clamp {lo hi : EReal} (x : EReal) (hlo : IsReal lo) (hhi : IsReal hi) :
    IsReal (Min.min hi (Max.max lo x)) := by
  refine ⟨ne_top_of_le_ne_top hhi.1 (min_le_left _ _), ?_⟩
  exact ne_bot_of_le_ne_bot (IsReal.min hhi hlo).2 (min_le_min_left hi (le_max_left lo x))

/-- The quotient of a real by a nonzero real is real. -/
theorem IsReal.div {x y : EReal} (hx : IsReal x) (hy : IsReal y) (h0 : y ≠ 0) :
    IsReal (Ideal.div x y) := by
  obtain ⟨b, rfl⟩ := hy.exists
  have hb : b ≠ 0 := fun h => h0 (by rw [h, EReal.coe_zero])
  rw [Ideal.div_coe hb]
  exact IsReal.mul hx (IsReal.coe _)

/-- The quotient of two positive reals is a positive real. -/
theorem IsReal.div_pos {x y : EReal} (hx : IsReal x) (hy : IsReal y) (hx0 : 0 < x) (hy0 : 0 < y) :
    IsReal (Ideal.div x y) ∧ 0 < Ideal.div x y := by
  refine ⟨IsReal.div hx hy hy0.ne', ?_⟩
  obtain ⟨a, rfl⟩ := hx.exists
  obtain ⟨b, rfl⟩ := hy.exists
  have ha : 0 < a := EReal.coe_pos.mp hx0
  have hb : 0 < b := EReal.coe_pos.mp hy0
  rw [Ideal.div_coe hb.ne', ← EReal.coe_mul]
  exact EReal.coe_pos.mpr (by positivity)

/-- A finite sum of reals is real. -/
theorem IsReal.sum {ι : Type} (s : Finset ι) (f : ι → EReal) (h : ∀ i ∈ s, IsReal (f i)) :
    IsReal (∑ i ∈ s, f i) :=
  Finset.sum_induction f IsReal (fun _ _ => IsReal.add) IsReal.zero h

/-- The supremum of finitely many reals (at least one) is one of them, hence real. -/
theorem IsReal.sup_univ {ι : Type} [Fintype ι] [Nonempty ι] (f : ι → EReal) (h : ∀ i, IsReal (f i)) :
    IsReal (Finset.univ.sup f) := by
  obtain ⟨i, -, hi⟩ := Finset.exists_mem_eq_sup Finset.univ Finset.univ_nonempty f
  rw [hi]; exact h i

/-- The infimum of finitely many reals (at least one) is one of them, hence real. -/
theorem IsReal.inf_univ {ι : Type} [Fintype ι] [Nonempty ι] (f : ι → EReal) (h : ∀ i, IsReal (f i)) :
    IsReal (Finset.univ.inf f) := by
  obtain ⟨i, -, hi⟩ := Finset.exists_mem_eq_inf Finset.univ Finset.univ_nonempty f
  rw [hi]; exact h i

/-! ## Cancelling a real -/

/-- Adding back a real `a` that was subtracted from an arbitrary extended real `b` returns `b`:
    for `b = ⊤` both sides are `⊤`, for `b = ⊥` both are `⊥`, and for real `b` it is the
    identity of the reals. -/
theorem add_sub_cancel_of_real {a : EReal} (b : EReal) (ha : IsReal a) : a + (b - a) = b := by
  obtain ⟨r, rfl⟩ := ha.exists
  induction b using EReal.rec with
  | bot => rw [EReal.bot_sub, EReal.add_bot]
  | top => rw [EReal.top_sub_coe, EReal.coe_add_top]
  | coe s => rw [← EReal.coe_sub, ← EReal.coe_add, add_sub_cancel]

/-! ## Single-precision words as extended reals -/

/-- The word with all exponent bits set and a zero significand denotes `⊤`. -/
theorem ofBits_pinf : Ideal.ofBits .f32 0x7F800000#32 = ⊤ := by simp [Ideal.ofBits, Ideal.ieee]

/-- The same word with the sign bit set denotes `⊥`. -/
theorem ofBits_ninf : Ideal.ofBits .f32 0xFF800000#32 = ⊥ := by simp [Ideal.ofBits, Ideal.ieee]

/-- `2 ^ 23 * 2 ^ (127 - 127 - 23) = 1`. -/
theorem ofBits_one : Ideal.ofBits .f32 0x3F800000#32 = 1 := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

/-- `(2 ^ 23 + 0x7E0000) * 2 ^ (133 - 127 - 23) = 127`. -/
theorem ofBits_127 : Ideal.ofBits .f32 0x42FE0000#32 = ((127 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_neg_128 : Ideal.ofBits .f32 0xC3000000#32 = ((-128 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-! A word whose exponent field is neither all zeros nor all ones denotes
    `± (2 ^ 23 + T) * 2 ^ (E - 150)`, the coercion of a real number; its exact value is not needed. -/

theorem isReal_322BCC77 : IsReal (Ideal.ofBits .f32 0x322BCC77#32) := by
  have h : ∃ r : ℝ, Ideal.ofBits .f32 0x322BCC77#32 = (r : EReal) := by
    simp [Ideal.ofBits, Ideal.ieee, -EReal.coe_mul]
  obtain ⟨r, hr⟩ := h
  rw [hr]; exact IsReal.coe r

theorem isReal_3F3504F3 : IsReal (Ideal.ofBits .f32 0x3F3504F3#32) := by
  have h : ∃ r : ℝ, Ideal.ofBits .f32 0x3F3504F3#32 = (r : EReal) := by
    simp [Ideal.ofBits, Ideal.ieee, -EReal.coe_mul]
  obtain ⟨r, hr⟩ := h
  rw [hr]; exact IsReal.coe r

theorem isReal_3FE26E98 : IsReal (Ideal.ofBits .f32 0x3FE26E98#32) := by
  have h : ∃ r : ℝ, Ideal.ofBits .f32 0x3FE26E98#32 = (r : EReal) := by
    simp [Ideal.ofBits, Ideal.ieee, -EReal.coe_mul]
  obtain ⟨r, hr⟩ := h
  rw [hr]; exact IsReal.coe r

theorem isReal_BFE26E98 : IsReal (Ideal.ofBits .f32 0xBFE26E98#32) := by
  have h : ∃ r : ℝ, Ideal.ofBits .f32 0xBFE26E98#32 = (r : EReal) := by
    simp [Ideal.ofBits, Ideal.ieee, -EReal.coe_mul]
    exact ⟨_, (EReal.coe_neg _).symm⟩
  obtain ⟨r, hr⟩ := h
  rw [hr]; exact IsReal.coe r

theorem isReal_BE93DD98 : IsReal (Ideal.ofBits .f32 0xBE93DD98#32) := by
  have h : ∃ r : ℝ, Ideal.ofBits .f32 0xBE93DD98#32 = (r : EReal) := by
    simp [Ideal.ofBits, Ideal.ieee, -EReal.coe_mul]
    exact ⟨_, (EReal.coe_neg _).symm⟩
  obtain ⟨r, hr⟩ := h
  rw [hr]; exact IsReal.coe r

/-- The word `0x322BCC77` (about `1e-8`) has a clear sign bit and a nonzero exponent field, so it
    denotes a product of positive reals. -/
theorem pos_322BCC77 : 0 < Ideal.ofBits .f32 0x322BCC77#32 := by
  simp [Ideal.ofBits, Ideal.ieee, -EReal.coe_mul]

/-! ## The sign function from comparisons -/

/-- Selecting `-1` or `1` by `t < 0` where `0 < |t|`, and `t` itself otherwise, is the sign of `t`,
    for every extended real: below zero (`⊥` included) `|t| > 0` and the value is `-1`; above zero
    (`⊤` included) `|t| > 0` and the value is `1`; at zero `|t| = 0` and the value is `t = 0`. -/
theorem sign_eq_select (t : EReal) :
    Scalar.select (Ideal.cmp .ogt (max t (-t)) 0)
        (Scalar.select (Ideal.cmp .olt t 0) (-1 : EReal) 1) t = Ideal.sign t := by
  simp only [Scalar.select, Ideal.cmp]
  rcases lt_trichotomy t 0 with hlt | h0 | hgt
  · have habs : 0 < max t (-t) := (Ideal.zero_lt_max_neg_iff t).mpr hlt.ne
    simp [hlt, habs, Ideal.sign_of_neg hlt]
  · subst h0
    simp [Ideal.sign_zero]
  · have habs : 0 < max t (-t) := (Ideal.zero_lt_max_neg_iff t).mpr hgt.ne'
    simp [hgt, not_lt.mpr hgt.le, habs, Ideal.sign_of_pos hgt]

/-! ## Folds of `max` and `min` as suprema and infima -/

/-- Folding `max` over a finite set from `⊥` is the supremum over the set. -/
theorem fold_max_bot {ι : Type} (s : Finset ι) (f : ι → EReal) : s.fold max ⊥ f = s.sup f := rfl

/-- Folding `min` over a finite set from `⊤` is the infimum over the set. -/
theorem fold_min_top {ι : Type} (s : Finset ι) (f : ι → EReal) : s.fold min ⊤ f = s.inf f := rfl

end LibFinite
-- ==== Proof.LibRowNormalise.lean ====
/-
  Row normalisation commutes with a weighted sum, on the extended reals.

  Let `w k` and `v k` be real numbers over a finite index type, and let `L = ∑ k, w k` be nonzero.
  Then dividing the weighted sum by the total is the weighted sum of the normalised weights:

      (∑ k, w k · v k) / L  =  ∑ k, (w k / L) · v k.

  Both sides are read with the extended reals' division `Ideal.div`, which off zero is the product with the
  reciprocal; since every term is a real number and `L ≠ 0`, the identity is the real one, `(∑ w v) · L⁻¹ =
  ∑ (w · L⁻¹) · v`, carried through the coercion `ℝ → EReal`. The hypothesis `L ≠ 0` cannot be dropped: at
  `L = 0` the left side is `⊤` or `⊥` by the sign of the numerator, while the right side is a sum of
  products of infinities with the `v k`, and the two differ already for `w = 0`, `v = 0` (`⊥` against `0`).
-/
import Idealize.ShloMosaic.PureOps.Ideal

noncomputable section

namespace Cert.RowNormalise

open Idealize.ShloMosaic

/-- The coercion of a finite sum of reals is the sum of the coercions. -/
theorem coe_sum {κ : Type} (s : Finset κ) (f : κ → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Dividing a weighted sum of reals by the nonzero total of the weights is the weighted sum with each weight
    divided by the total first. -/
theorem div_sum_eq_sum_div {κ : Type} [Fintype κ] (w v : κ → ℝ) (hL : (∑ k, w k) ≠ 0) :
    Ideal.div (∑ k, (w k : EReal) * (v k : EReal)) (∑ k, (w k : EReal))
      = ∑ k, Ideal.div (w k : EReal) (∑ j, (w j : EReal)) * (v k : EReal) := by
  have hden : (∑ k, (w k : EReal)) = ((∑ k, w k : ℝ) : EReal) := (coe_sum Finset.univ w).symm
  have hnum : (∑ k, (w k : EReal) * (v k : EReal)) = ((∑ k, w k * v k : ℝ) : EReal) := by
    rw [coe_sum]; exact Finset.sum_congr rfl fun k _ => (EReal.coe_mul _ _).symm
  -- the left side is the coercion of `(∑ w v) · L⁻¹`
  have hl : Ideal.div (∑ k, (w k : EReal) * (v k : EReal)) (∑ k, (w k : EReal))
      = (((∑ k, w k * v k) * (1 / ∑ k, w k) : ℝ) : EReal) := by
    rw [hden, hnum, Ideal.div_coe hL, ← EReal.coe_mul]
  -- each term of the right side is the coercion of `w k · L⁻¹ · v k`
  have hr : ∀ k, Ideal.div (w k : EReal) (∑ j, (w j : EReal)) * (v k : EReal)
      = ((w k * (1 / ∑ j, w j) * v k : ℝ) : EReal) := fun k => by
    rw [hden, Ideal.div_coe hL, ← EReal.coe_mul, ← EReal.coe_mul]
  rw [hl, Finset.sum_congr rfl fun k _ => hr k, ← coe_sum, Finset.sum_mul]
  exact congrArg _ (Finset.sum_congr rfl fun k _ => by ring)

end Cert.RowNormalise

end
-- ==== Proof.LibSoftDecode.lean ====
/-
  Soft decoding of token logits against a codebook, on the extended reals.

  For a matrix of logits X [n, K] and a codebook C [K, N]:
    rowMax X r   = max over k of X (r, k)                      (folded from −∞)
    weight X r k = exp (X (r, k) − rowMax X r)
    decoded X C (r, j) = (Σ_k weight X r k · C (k, j)) / (Σ_k weight X r k)
  is "normalise last": the un-normalised weights meet the codebook first, and the row's total divides the result.
  "Normalise first" is
    decodedN X C (r, j) = Σ_k (weight X r k / (0 + Σ_k' weight X r k')) · C (k, j).
  When every logit and every codebook entry is a real number the two agree: the row maximum is then real (the
  maximum of finitely many reals, K > 0), every weight is exp of a real, hence a positive real, the total is a
  positive real, and over the reals  (Σ w·v) / L = Σ (w / L)·v.  At an infinite logit the identity fails
  (a weight may be +∞ or the difference X − max may be a junk value), so the reality hypotheses are used.
-/
import Idealize.ShloMosaic.PureOps.Ideal
import Idealize.ShloMosaic.Lib.ValueIdx
import proofs.«149646_j34445637714102_2_alg».proof.Proof.LibFinite
import proofs.«149646_j34445637714102_2_alg».proof.Proof.LibRowNormalise

noncomputable section

namespace Cert.SoftDecode

open Idealize.ShloMosaic Idealize.ShloMosaic.ValueIdx LibFinite

variable {n K N : ℕ}

/-- The maximum of row `r`, folded from the float word of −∞. -/
def rowMax (X : (⟨2, ![n, K]⟩ : Shape).Idx → EReal) (r : Fin n) : EReal :=
  (Finset.univ : Finset (Fin K)).fold max (Ideal.ofBits .f32 0xFF800000#32) (fun k => X (ix2 r k))

/-- The un-normalised softmax weight of entry `(r, k)`. -/
def weight (X : (⟨2, ![n, K]⟩ : Shape).Idx → EReal) (r : Fin n) (k : Fin K) : EReal :=
  Ideal.exp (X (ix2 r k) - rowMax X r)

/-- Normalise last: the weighted sum of codebook rows over the total weight. -/
def decoded (X : (⟨2, ![n, K]⟩ : Shape).Idx → EReal) (C : (⟨2, ![K, N]⟩ : Shape).Idx → EReal) :
    (⟨2, ![n, N]⟩ : Shape).Idx → EReal :=
  fun i => Ideal.div (∑ k : Fin K, weight X (i 0) k * C (ix2 k (i 1))) (∑ k : Fin K, weight X (i 0) k)

/-- Normalise first: the sum of codebook rows weighted by the normalised weights (the total written as the host's
    sum, from zero). -/
def decodedN (X : (⟨2, ![n, K]⟩ : Shape).Idx → EReal) (C : (⟨2, ![K, N]⟩ : Shape).Idx → EReal) :
    (⟨2, ![n, N]⟩ : Shape).Idx → EReal :=
  fun i => ∑ k : Fin K, Ideal.div (weight X (i 0) k) (0 + ∑ k' : Fin K, weight X (i 0) k') * C (ix2 k (i 1))

/-- The maximum of a nonempty row of reals is real. -/
theorem rowMax_real [NeZero K] (X : (⟨2, ![n, K]⟩ : Shape).Idx → EReal) (hX : ∀ i, IsReal (X i)) (r : Fin n) :
    IsReal (rowMax X r) := by
  haveI : Nonempty (Fin K) := ⟨⟨0, Nat.pos_of_ne_zero (NeZero.ne K)⟩⟩
  unfold rowMax
  rw [ofBits_ninf, fold_max_bot]
  exact IsReal.sup_univ _ fun k => hX _

/-- Every weight over a nonempty row of reals is a positive real. -/
theorem weight_pos_real [NeZero K] (X : (⟨2, ![n, K]⟩ : Shape).Idx → EReal) (hX : ∀ i, IsReal (X i)) (r : Fin n)
    (k : Fin K) : ∃ w : ℝ, 0 < w ∧ weight X r k = (w : EReal) := by
  obtain ⟨d, hd⟩ := (IsReal.sub (hX (ix2 r k)) (rowMax_real X hX r)).exists
  exact ⟨Real.exp d, Real.exp_pos d, by unfold weight; rw [hd, Ideal.exp_coe]⟩

/-- With real logits and a real codebook, normalising first or last gives the same decoding. -/
theorem decodedN_eq_decoded [NeZero K] (X : (⟨2, ![n, K]⟩ : Shape).Idx → EReal)
    (C : (⟨2, ![K, N]⟩ : Shape).Idx → EReal) (hX : ∀ i, IsReal (X i)) (hC : ∀ i, IsReal (C i)) :
    decodedN X C = decoded X C := by
  funext i
  haveI : Nonempty (Fin K) := ⟨⟨0, Nat.pos_of_ne_zero (NeZero.ne K)⟩⟩
  choose w hw0 hw using fun k => weight_pos_real X hX (i 0) k
  choose v hv using fun k => (hC (ix2 k (i 1))).exists
  have hL : (∑ k, w k) ≠ 0 := (Finset.sum_pos (fun k _ => hw0 k) Finset.univ_nonempty).ne'
  unfold decodedN decoded
  simp only [hw, hv, zero_add]
  exact (Cert.RowNormalise.div_sum_eq_sum_div w v hL).symm

end Cert.SoftDecode

end
-- ==== Proof.Spec.lean ====
/-
  Single-head attention over a batch, on the extended reals: the function both programs compute.

  For x [4, 4096, 1024] and weights Wq, Wk, Wv [1024, 64]:
    proj x W (b, s, h)     = Σ_d x (b, s, d) · W (d, h)                      (Q, K, V)
    logits b (q, k)        = (Σ_h Q (b, q, h) · K (b, k, h)) · 1/8           (batch b's scaled scores)
    values b (k, h)        = V (b, k, h)
  and, row by row, the softmax of the logits applied to the values. The softmax can be normalised LAST,
    attnLast (b, q, h)  = (Σ_k w (q, k) · V (b, k, h)) / (Σ_k w (q, k)),   w (q, k) = exp (logits (q, k) − max_k logits (q, k)),
  or FIRST,
    attnFirst (b, q, h) = Σ_k (w (q, k) / (0 + Σ_k' w (q, k'))) · V (b, k, h).
  When every entry of x and of the weights is a real number, so is every entry of Q, K, V and of the logits
  (finite sums of products of reals, times the real 1/8), and the two normalisations agree: each weight is a positive
  real, their total a positive real, and over the reals (Σ w·v) / L = Σ (w / L)·v. At infinite inputs the identity
  fails, so the reality of the inputs is used.
-/
import Idealize.ShloMosaic.PureOps.Ideal
import Idealize.ShloMosaic.Lib.ValueIdx
import proofs.«149646_j34445637714102_2_alg».proof.Proof.LibFinite
import proofs.«149646_j34445637714102_2_alg».proof.Proof.LibSoftDecode

noncomputable section

namespace Cert.Attn

open Idealize.ShloMosaic Idealize.ShloMosaic.ValueIdx LibFinite

/-- The shapes: the activations, a weight matrix, a projected array, one batch's logits, one batch's values. -/
abbrev SX : Shape := ⟨3, ![4, 4096, 1024]⟩
abbrev SW : Shape := ⟨2, ![1024, 64]⟩
abbrev SO : Shape := ⟨3, ![4, 4096, 64]⟩
abbrev SS : Shape := ⟨2, ![4096, 4096]⟩
abbrev SV : Shape := ⟨2, ![4096, 64]⟩

/-- The scale 64^(−1/2) = 1/8, as the float word both programs carry. -/
def scale : EReal := Ideal.ofBits .f32 0x3E000000#32

/-- `2 ^ 23 · 2 ^ (124 − 127 − 23) = 1/8`. -/
theorem scale_eq : scale = ((1 / 8 : ℝ) : EReal) := by
  unfold scale
  simp [Ideal.ofBits, Ideal.ieee, -EReal.coe_mul]; norm_num

theorem scale_real : IsReal scale := by rw [scale_eq]; exact IsReal.coe _

/-- A projection at (b, s, h): row (b, s) of x against column h of W. -/
def projAt (x : SX.Idx → EReal) (W : SW.Idx → EReal) (b : Fin 4) (s : Fin 4096) (h : Fin 64) : EReal :=
  ∑ d : Fin 1024, x (ix3 b s d) * W (ix2 d h)

/-- The projected array. -/
def proj (x : SX.Idx → EReal) (W : SW.Idx → EReal) : SO.Idx → EReal :=
  fun i => projAt x W (i 0) (i 1) (i 2)

/-- Batch `b`'s scaled scores: query row against key row over the head axis, times 1/8. -/
def logits (x : SX.Idx → EReal) (Wq Wk : SW.Idx → EReal) (b : Fin 4) : SS.Idx → EReal :=
  fun j => (∑ h : Fin 64, projAt x Wq b (j 0) h * projAt x Wk b (j 1) h) * scale

/-- Batch `b`'s values. -/
def values (x : SX.Idx → EReal) (Wv : SW.Idx → EReal) (b : Fin 4) : SV.Idx → EReal :=
  fun j => projAt x Wv b (j 0) (j 1)

/-- Attention with the softmax normalised last (the weighted sum of value rows over the total weight). -/
def attnLast (x : SX.Idx → EReal) (Wq Wk Wv : SW.Idx → EReal) : SO.Idx → EReal :=
  fun i => Cert.SoftDecode.decoded (logits x Wq Wk (i 0)) (values x Wv (i 0)) (ix2 (i 1) (i 2))

/-- Attention with the softmax normalised first (the sum of value rows weighted by the normalised weights). -/
def attnFirst (x : SX.Idx → EReal) (Wq Wk Wv : SW.Idx → EReal) : SO.Idx → EReal :=
  fun i => Cert.SoftDecode.decodedN (logits x Wq Wk (i 0)) (values x Wv (i 0)) (ix2 (i 1) (i 2))

/-- A projection of real arrays is real. -/
theorem projAt_real {x : SX.Idx → EReal} {W : SW.Idx → EReal} (hx : ∀ i, IsReal (x i)) (hW : ∀ i, IsReal (W i))
    (b : Fin 4) (s : Fin 4096) (h : Fin 64) : IsReal (projAt x W b s h) :=
  IsReal.sum _ _ fun d _ => (hx _).mul (hW _)

/-- The logits of real arrays are real. -/
theorem logits_real {x : SX.Idx → EReal} {Wq Wk : SW.Idx → EReal} (hx : ∀ i, IsReal (x i)) (hq : ∀ i, IsReal (Wq i))
    (hk : ∀ i, IsReal (Wk i)) (b : Fin 4) (j : SS.Idx) : IsReal (logits x Wq Wk b j) :=
  (IsReal.sum _ _ fun h _ => (projAt_real hx hq _ _ _).mul (projAt_real hx hk _ _ _)).mul scale_real

/-- On real inputs the two normalisations of the softmax give the same attention. -/
theorem attnFirst_eq_attnLast {x : SX.Idx → EReal} {Wq Wk Wv : SW.Idx → EReal} (hx : ∀ i, IsReal (x i))
    (hq : ∀ i, IsReal (Wq i)) (hk : ∀ i, IsReal (Wk i)) (hv : ∀ i, IsReal (Wv i)) :
    attnFirst x Wq Wk Wv = attnLast x Wq Wk Wv := by
  funext i
  unfold attnFirst attnLast
  rw [Cert.SoftDecode.decodedN_eq_decoded (logits x Wq Wk (i 0)) (values x Wv (i 0))
    (fun j => logits_real hx hq hk _ j) (fun j => projAt_real hx hv _ _ _)]

end Cert.Attn

end
-- ==== Proof.SpecKV.lean ====
/-
  Attention from given K and V arrays, and how the softmax's rows move between a tile and the whole matrix.

  `attnKV x wq k v` is the normalise-last attention whose keys and values are read from arrays k, v [4, 4096, 64]
  instead of being projected on the spot; with k and v the projections of x it is `attnLast`. A row of the soft
  decoding depends on the logits only through that row: two logits matrices that agree on one row (of possibly
  different heights) give the same decoded row.
-/
import proofs.«149646_j34445637714102_2_alg».proof.Proof.Spec

noncomputable section

namespace Cert.Attn

open Idealize.ShloMosaic Idealize.ShloMosaic.ValueIdx LibFinite

/-- Batch `b`'s scaled scores with the keys read from an array. -/
def logitsK (x : SX.Idx → EReal) (wq : SW.Idx → EReal) (k : SO.Idx → EReal) (b : Fin 4) : SS.Idx → EReal :=
  fun j => (∑ h : Fin 64, (∑ d : Fin 1024, x (ix3 b (j 0) d) * wq (ix2 d h)) * k (ix3 b (j 1) h)) * scale

/-- Batch `b`'s values read from an array. -/
def valuesV (v : SO.Idx → EReal) (b : Fin 4) : SV.Idx → EReal := fun j => v (ix3 b (j 0) (j 1))

/-- Normalise-last attention over given K and V arrays. -/
def attnKV (x : SX.Idx → EReal) (wq : SW.Idx → EReal) (k v : SO.Idx → EReal) : SO.Idx → EReal :=
  fun i => Cert.SoftDecode.decoded (logitsK x wq k (i 0)) (valuesV v (i 0)) (ix2 (i 1) (i 2))

/-- With the projections of x as keys and values it is the attention of the specification. -/
theorem attnKV_proj (x : SX.Idx → EReal) (Wq Wk Wv : SW.Idx → EReal) :
    attnKV x Wq (proj x Wk) (proj x Wv) = attnLast x Wq Wk Wv := rfl

/-- A decoded row depends on the logits only through that row. -/
theorem decoded_row_congr {n n' K N : ℕ} (X : (⟨2, ![n, K]⟩ : Shape).Idx → EReal)
    (X' : (⟨2, ![n', K]⟩ : Shape).Idx → EReal) (C : (⟨2, ![K, N]⟩ : Shape).Idx → EReal) (r : Fin n) (r' : Fin n')
    (h : Fin N) (hrow : ∀ k, X (ix2 r k) = X' (ix2 r' k)) :
    Cert.SoftDecode.decoded X C (ix2 r h) = Cert.SoftDecode.decoded X' C (ix2 r' h) := by
  have hf : (fun k : Fin K => X (ix2 r k)) = fun k => X' (ix2 r' k) := funext hrow
  have hm : Cert.SoftDecode.rowMax X r = Cert.SoftDecode.rowMax X' r' := by
    unfold Cert.SoftDecode.rowMax; rw [hf]
  have hw : ∀ k, Cert.SoftDecode.weight X r k = Cert.SoftDecode.weight X' r' k := fun k => by
    unfold Cert.SoftDecode.weight; rw [hrow k, hm]
  show Ideal.div (∑ k : Fin K, Cert.SoftDecode.weight X r k * C (ix2 k h)) (∑ k : Fin K, Cert.SoftDecode.weight X r k)
    = Ideal.div (∑ k : Fin K, Cert.SoftDecode.weight X' r' k * C (ix2 k h)) (∑ k : Fin K, Cert.SoftDecode.weight X' r' k)
  simp only [hw]

end Cert.Attn

end
-- ==== Proof.KValue.lean ====
import proofs.«149646_j34445637714102_2_alg».proof.Proof.KRun
import proofs.«149646_j34445637714102_2_alg».proof.Proof.KHost
import proofs.«149646_j34445637714102_2_alg».proof.Proof.SpecKV

/-!
# The kernel's value

The program's result is, region by region:

* region 0 writes the arrays `K = x · Wk` and `V = x · Wv`, read off the joined weight matrix
  `[Wk | Wv]`: entry `(b, s, h)` of `K` is `Σ_d x (b, s, d) · [Wk | Wv] (d, h)` and that of `V` is
  `Σ_d x (b, s, d) · [Wk | Wv] (d, 64 + h)`;
* region 1 writes attention (softmax normalised last) of `x`, `Wq` and those two arrays.

Since column `h` of the joined matrix is column `h` of `Wk`, and column `64 + h` is column `h` of
`Wv`, the two arrays are the projections of `x`, and the result is the attention of the
specification at the launch contents of the four arguments.  The three facts about the regions'
write-backs are taken as hypotheses here.
-/

set_option maxRecDepth 16384

noncomputable section

namespace Cert.KernelIdeal.AttnValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- Region 1, entered at any contents, leaves in the result array the attention of its four inputs. -/
def OutFact : Prop :=
  ∀ (V : (c : Dev nD) → (b : Ref sig .tc) → Buf (Elt Ideal) ((c : Thread nD τ).loc b)) (c : Dev nD),
    (dat1 V c).arrAt 4 cfg1.N
      = Cert.Attn.attnKV (V c main_arg0) (V c main_arg1) (V c main_v1_0) (V c main_v1_1)

/-- `o (b, s, h) = Σ_d x (b, s, d) · w (d, κ h)` at every entry: the array `o` holds the rows of `x` against the
    columns `κ h` of `w`. -/
def RowsTimesCols (κ : Fin 64 → Fin 128) (o : S4x4096x64.Idx → EReal) (x : S4x4096x1024.Idx → EReal)
    (w : S1024x128.Idx → EReal) : Prop :=
  ∀ (b : Fin 4) (s : Fin 4096) (h : Fin 64),
    o (ix3 b s h) = ∑ d : Fin 1024, x (ix3 b s d) * w (ix2 d (κ h))

/-- Region 0, entered at any contents, leaves in its first output the rows of `x` against the left
    64 columns of the joined weight matrix. -/
def KFact : Prop :=
  ∀ (V : (c : Dev nD) → (b : Ref sig .tc) → Buf (Elt Ideal) ((c : Thread nD τ).loc b)) (c : Dev nD),
    RowsTimesCols (fun h => (⟨h.val, by omega⟩ : Fin 128)) ((dat0 V c).arrAt 2 cfg0.N) (V c main_arg0) (V c main_v0)

/-- Region 0, entered at any contents, leaves in its second output the rows of `x` against the right
    64 columns of the joined weight matrix. -/
def VFact : Prop :=
  ∀ (V : (c : Dev nD) → (b : Ref sig .tc) → Buf (Elt Ideal) ((c : Thread nD τ).loc b)) (c : Dev nD),
    RowsTimesCols (fun h => (⟨64 + h.val, by omega⟩ : Fin 128)) ((dat0 V c).arrAt 3 cfg0.N) (V c main_arg0) (V c main_v0)

variable (m : (ℓ : Loc nD τ sig) → Buf (Elt Ideal) ℓ) (ρ : Dev nD → PrngReg)

/-- The first output of region 0 is the projection of `x` by `Wk`. -/
theorem k_eq_proj (hK : KFact) (c : Dev nD) :
    (dat0 (V1 m ρ) c).arrAt 2 cfg0.N
      = Cert.Attn.proj (m ((c : Thread nD τ).loc main_arg0)) (m ((c : Thread nD τ).loc main_arg2)) := by
  funext i
  obtain ⟨b, s, h, rfl⟩ : ∃ (b : Fin 4) (s : Fin 4096) (h : Fin 64), i = ix3 b s h := ⟨i 0, i 1, i 2, eq_ix3 i⟩
  refine (hK (V1 m ρ) c b s h).trans ?_
  show _ = Cert.Attn.projAt (m ((c : Thread nD τ).loc main_arg0)) (m ((c : Thread nD τ).loc main_arg2)) b s h
  unfold Cert.Attn.projAt
  refine Finset.sum_congr rfl fun d _ => ?_
  rw [Cert.KernelIdeal.AttnHost.V1_wkv_left m ρ c d h, Cert.KernelIdeal.AttnHost.V1_arg0 m ρ c]

/-- The second output of region 0 is the projection of `x` by `Wv`. -/
theorem v_eq_proj (hV : VFact) (c : Dev nD) :
    (dat0 (V1 m ρ) c).arrAt 3 cfg0.N
      = Cert.Attn.proj (m ((c : Thread nD τ).loc main_arg0)) (m ((c : Thread nD τ).loc main_arg3)) := by
  funext i
  obtain ⟨b, s, h, rfl⟩ : ∃ (b : Fin 4) (s : Fin 4096) (h : Fin 64), i = ix3 b s h := ⟨i 0, i 1, i 2, eq_ix3 i⟩
  refine (hV (V1 m ρ) c b s h).trans ?_
  show _ = Cert.Attn.projAt (m ((c : Thread nD τ).loc main_arg0)) (m ((c : Thread nD τ).loc main_arg3)) b s h
  unfold Cert.Attn.projAt
  refine Finset.sum_congr rfl fun d _ => ?_
  rw [Cert.KernelIdeal.AttnHost.V1_wkv_right m ρ c d h, Cert.KernelIdeal.AttnHost.V1_arg0 m ρ c]

/-- The result array after the second region is the attention of the launch contents. -/
theorem out_value (hO : OutFact) (hK : KFact) (hV : VFact) (c : Dev nD) :
    W3 m ρ c (Proc.devRef .tc main_v2)
      = Cert.Attn.attnLast (m ((c : Thread nD τ).loc main_arg0)) (m ((c : Thread nD τ).loc main_arg1))
          (m ((c : Thread nD τ).loc main_arg2)) (m ((c : Thread nD τ).loc main_arg3)) := by
  refine (Cert.KernelIdeal.AttnHost.W3_out m ρ c).trans ?_
  refine (hO (V2 m ρ) c).trans ?_
  rw [Cert.KernelIdeal.AttnHost.V2_arg0 m ρ c, Cert.KernelIdeal.AttnHost.V2_arg1 m ρ c,
    Cert.KernelIdeal.AttnHost.V2_k m ρ c, Cert.KernelIdeal.AttnHost.V2_v m ρ c,
    k_eq_proj m ρ hK c, v_eq_proj m ρ hV c]
  exact Cert.Attn.attnKV_proj _ _ _ _

/-- Every weakly fair execution of the program terminates without a fault; the result array ends at the attention of
    the launch contents of the four arguments, and the arguments end as launched. -/
theorem run_value (hO : OutFact) (hK : KFact) (hV : VFact) :
    θ_run defs (onTc (τ := τ) (main (F := Ideal))) ⟨m, fun _ => 0, ρ⟩ (fun r => ∀ c : Dev nD,
      r.2.mem ((c.tc : Thread nD τ).loc main_v2)
        = Cert.Attn.attnLast (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_value m ρ hO hK hV c), (h c).2⟩)
    (Cert.KernelIdeal.AttnRun.run_named m ρ)

end Cert.KernelIdeal.AttnValue
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.RefValue.lean ====
/-
  The reference program's result, read index by index, is single-head attention with the softmax normalised first.

  Stage by stage: each of the three projections reads, at (b, s, h), the sum over d of x (b, s, d) · W (d, h); the
  scaled scores read, at (b, q, k), the sum over h of Q (b, q, h) · K (b, k, h), times 1/8; the row maximum (a
  maximum-reduction from −∞, met once more with −∞) is the fold of max from −∞ over the row, because max ⊥ y = y; the
  weights are exp (score − row maximum); the denominator is 0 plus the sum of the row's weights; the normalised
  weights are weight / denominator; and the last contraction sums, over k, normalised weight (b, q, k) · V (b, k, h).
  Every step is an identity of terms on the extended reals: no finiteness of the inputs is used.
-/
import proofs.«149646_j34445637714102_2_alg».proof.Proof.Gen.ReferenceIdeal.Read
import proofs.«149646_j34445637714102_2_alg».proof.Proof.Spec
import proofs.«149646_j34445637714102_2_alg».proof.Proof.LibRows

noncomputable section

namespace Cert.ReferenceIdeal.RefValue

open Cert.ReferenceIdeal Cert.ReferenceIdeal.Gen Cert.ReferenceIdeal.Read Idealize.ShloMosaic
  Idealize.ShloMosaic.ValueIdx Cert.Attn Cert.SoftDecode

/-- The activations' and a weight matrix's contents at the extended reals. -/
abbrev XTy := (⟨S4x4096x1024, .f32⟩ : BufTy).Contents (Elt Ideal)
abbrev WTy := (⟨S1024x64, .f32⟩ : BufTy).Contents (Elt Ideal)

/-- A projection stage at (b, s, h) is row (b, s) of x against column h of W. -/
theorem v0_at (x0 : XTy) (x1 : WTy) (b : Fin 4) (s : Fin 4096) (h : Fin 64) :
    val_main_v0 (F := Ideal) x0 x1 (ix3 b s h) = projAt x0 x1 b s h := by
  rw [val_main_v0_apply]
  unfold projAt
  refine Finset.sum_congr rfl fun d _ => ?_
  congr 1
  · exact congrArg x0 (funext fun a => Fin.ext (by match a with | ⟨0, _⟩ => rfl | ⟨1, _⟩ => rfl | ⟨2, _⟩ => rfl))
  · exact congrArg x1 (funext fun a => Fin.ext (by match a with | ⟨0, _⟩ => rfl | ⟨1, _⟩ => rfl))

/-- The three projection stages are the same contraction. -/
theorem v1_at (x0 : XTy) (x2 : WTy) (b : Fin 4) (s : Fin 4096) (h : Fin 64) :
    val_main_v1 (F := Ideal) x0 x2 (ix3 b s h) = projAt x0 x2 b s h := v0_at x0 x2 b s h

theorem v2_at (x0 : XTy) (x3 : WTy) (b : Fin 4) (s : Fin 4096) (h : Fin 64) :
    val_main_v2 (F := Ideal) x0 x3 (ix3 b s h) = projAt x0 x3 b s h := v0_at x0 x3 b s h

/-- The scaled scores at (b, q, k) are batch b's logits at (q, k). -/
theorem v5_at (x0 : XTy) (x1 x2 : WTy) (b : Fin 4) (q k : Fin 4096) :
    val_main_v5 (F := Ideal) x0 x1 x2 (ix3 b q k) = logits x0 x1 x2 b (ix2 q k) := by
  rw [val_main_v5_apply, val_main_v3_apply, val_main_v4_apply, val_main_cst_apply]
  unfold logits scale
  simp only [Ideal.mulf_def, Ideal.ofBits_def]
  refine congrArg (· * _) (Finset.sum_congr rfl fun h _ => ?_)
  have el : lidx_main_v3 (ix3 b q k) h = ix3 b q h :=
    funext fun a => Fin.ext (by match a with | ⟨0, _⟩ => rfl | ⟨1, _⟩ => rfl | ⟨2, _⟩ => rfl)
  have er : ridx_main_v3 (ix3 b q k) h = ix3 b k h :=
    funext fun a => Fin.ext (by match a with | ⟨0, _⟩ => rfl | ⟨1, _⟩ => rfl | ⟨2, _⟩ => rfl)
  rw [el, er, v0_at, v1_at]

/-- The row maximum at (b, q): the maximum-reduction from −∞ along the key axis, met once more with −∞, is the fold
    of max from −∞ over row q of batch b's logits. -/
theorem v8_at (x0 : XTy) (x1 x2 : WTy) (b : Fin 4) (q : Fin 4096) :
    val_main_v8 (F := Ideal) x0 x1 x2 (ix2 b q) = rowMax (logits x0 x1 x2 b) q := by
  rw [val_main_v8_apply, val_main_v7_apply, val_main_cst_1_apply]
  unfold val_main_v6
  rw [Cert.LibRows.hostRowMax_apply (val_main_v5 (F := Ideal) x0 x1 x2) (val_main_cst_0 (F := Ideal))
    reducesTo_S4x4096x4096_S4x4096_d2 (by decide) h_S_ b q, val_main_cst_0_apply]
  simp only [Ideal.maximumf_def, Ideal.ofBits_def, v5_at]
  unfold rowMax
  rw [LibFinite.ofBits_ninf]
  exact max_bot_left _

/-- The weight at (b, q, k): exp of the score less the row maximum. -/
theorem v12_at (x0 : XTy) (x1 x2 : WTy) (b : Fin 4) (q k : Fin 4096) :
    val_main_v12 (F := Ideal) x0 x1 x2 (ix3 b q k) = weight (logits x0 x1 x2 b) q k := by
  rw [val_main_v12_apply, val_main_v11_apply, val_main_v10_apply, val_main_v9_apply]
  have e : idx_main_v9 (idx_main_v10 (ix3 b q k)) = ix2 b q :=
    funext fun a => Fin.ext (by match a with | ⟨0, _⟩ => rfl | ⟨1, _⟩ => rfl)
  rw [e, v8_at, v5_at]
  simp only [Ideal.hostUnary_exp_def, Ideal.subf_def]
  rfl

/-- The denominator at (b, q): zero plus the sum of row q's weights. -/
theorem v13_at (x0 : XTy) (x1 x2 : WTy) (b : Fin 4) (q : Fin 4096) :
    val_main_v13 (F := Ideal) x0 x1 x2 (ix2 b q) = 0 + ∑ k : Fin 4096, weight (logits x0 x1 x2 b) q k := by
  rw [val_main_v13_apply, val_main_cst_2_apply]
  simp only [Ideal.ofBits_def, Ideal.ofBits_zero_f32]
  refine congrArg (0 + ·) (Finset.sum_congr rfl fun k _ => ?_)
  have e : idx_main_v13 (ix2 b q) k = ix3 b q k :=
    funext fun a => Fin.ext (by match a with | ⟨0, _⟩ => rfl | ⟨1, _⟩ => rfl | ⟨2, _⟩ => rfl)
  rw [e, v12_at]

/-- The normalised weight at (b, q, k). -/
theorem v16_at (x0 : XTy) (x1 x2 : WTy) (b : Fin 4) (q k : Fin 4096) :
    val_main_v16 (F := Ideal) x0 x1 x2 (ix3 b q k)
      = Ideal.div (weight (logits x0 x1 x2 b) q k) (0 + ∑ k' : Fin 4096, weight (logits x0 x1 x2 b) q k') := by
  rw [val_main_v16_apply, val_main_v15_apply, val_main_v14_apply]
  have e : idx_main_v14 (idx_main_v15 (ix3 b q k)) = ix2 b q :=
    funext fun a => Fin.ext (by match a with | ⟨0, _⟩ => rfl | ⟨1, _⟩ => rfl)
  rw [e, v13_at, v12_at]
  simp only [Ideal.hostDivf_def]

/-- The reference program's result is attention with the softmax normalised first. -/
theorem ref_eq (x0 : (⟨S4x4096x1024, .f32⟩ : BufTy).Contents (Elt Ideal)) (x1 x2 x3 : (⟨S1024x64, .f32⟩ : BufTy).Contents (Elt Ideal)) :
    Cert.ReferenceIdeal.Read.val_main_v17 (F := Ideal) x0 x1 x2 x3 = Cert.Attn.attnFirst x0 x1 x2 x3 := by
  funext i
  obtain ⟨b, q, h, rfl⟩ : ∃ (b : Fin 4) (q : Fin 4096) (h : Fin 64), i = ix3 b q h := ⟨i 0, i 1, i 2, eq_ix3 i⟩
  rw [val_main_v17_apply]
  show _ = decodedN (logits x0 x1 x2 b) (values x0 x3 b) (ix2 q h)
  unfold decodedN
  refine Finset.sum_congr rfl fun k _ => ?_
  have el : lidx_main_v17 (ix3 b q h) k = ix3 b q k :=
    funext fun a => Fin.ext (by match a with | ⟨0, _⟩ => rfl | ⟨1, _⟩ => rfl | ⟨2, _⟩ => rfl)
  have er : ridx_main_v17 (ix3 b q h) k = ix3 b k h :=
    funext fun a => Fin.ext (by match a with | ⟨0, _⟩ => rfl | ⟨1, _⟩ => rfl | ⟨2, _⟩ => rfl)
  rw [el, er, v16_at, v2_at]
  rfl

end Cert.ReferenceIdeal.RefValue

end
-- ==== Proof.Finite.lean ====
import proofs.«149646_j34445637714102_2_alg».proof.Pre_finite_inputs
import proofs.«149646_j34445637714102_2_alg».proof.Proof.Gen.Pre_finite_inputs
import proofs.«149646_j34445637714102_2_alg».proof.Proof.LibFinite
import Idealize.ShloMosaic.Lib.ReduceAll

/-!
# From the precondition to real inputs

The precondition says that, for each of the four input arrays, every entry `x` satisfies
`|x| < +∞`, the four statements joined by `and`.  Over the extended reals `|x| = max x (-x)`,
and `max x (-x) < ⊤` holds exactly when `x` is neither `⊤` (then `max x (-x) = ⊤`) nor `⊥`
(then `-x = ⊤`).  Hence every entry of every input is a real number.
-/

noncomputable section
namespace Cert.Attn.Finite
open Idealize.ShloMosaic

/-- An extended real whose absolute value `max x (-x)` is strictly below `⊤` is real:
    at `x = ⊤` the maximum is `⊤`, and at `x = ⊥` its second argument `-⊥` is `⊤`. -/
theorem isReal_of_abs_lt_top (x : EReal) (h : max x (-x) < ⊤) : LibFinite.IsReal x := by
  induction x using EReal.rec with
  | bot => simp at h
  | top => simp at h
  | coe r => exact LibFinite.IsReal.coe r

/-- The comparison word `|x| < +∞` being one says that `max x (-x) < ⊤`. -/
theorem abs_lt_top_of_cmp (x : EReal)
    (h : Ideal.cmp .olt (max x (-x)) (Ideal.ofBits .f32 0x7F800000#32) = 1#1) : max x (-x) < ⊤ := by
  rw [LibFinite.ofBits_pinf] at h
  by_contra hn
  simp [Ideal.cmp, hn] at h

/-- The result shape of a reduction over all axes has a single index. -/
instance subsingleton_scalar_idx : Subsingleton Cert.Pre_finite_inputs.S_.Idx :=
  ⟨fun a b => funext fun d => d.elim0⟩

/-- One array: if the conjunction over all entries of `|a i| < +∞` is one, every entry is real. -/
theorem real_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (h : Host.reduce IntOp.andi
          (cmpf .olt (Host.absf a)
            (broadcastInDim S ![] hb (constant (F := Ideal) Cert.Pre_finite_inputs.S_ .f32 0x7F800000#32)))
          init hr hu j = 1#1) :
    ∀ i, LibFinite.IsReal (a i) := fun i =>
  isReal_of_abs_lt_top (a i) (abs_lt_top_of_cmp (a i) (Host.reduce_andi_all _ init hr hu j h i))

theorem real_of_pre (a0 : FVec Ideal Cert.Pre_finite_inputs.S4x4096x1024 .f32)
    (a1 a2 a3 : FVec Ideal Cert.Pre_finite_inputs.S1024x64 .f32)
    (h : Cert.Pre_finite_inputs.fn (F := Ideal) a0 a1 a2 a3 = (fun _ => 1#1)) :
    (∀ i, LibFinite.IsReal (a0 i)) ∧ (∀ i, LibFinite.IsReal (a1 i)) ∧
      (∀ i, LibFinite.IsReal (a2 i)) ∧ (∀ i, LibFinite.IsReal (a3 i)) := by
  have h0 := congrFun h (fun d => d.elim0)
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ _ _ h0', real_of_all a1 _ _ _ _ _ h1,
    real_of_all a2 _ _ _ _ _ h2, real_of_all a3 _ _ _ _ _ h3⟩

end Cert.Attn.Finite
-- ==== Proof.Claims.lean ====
import proofs.«149646_j34445637714102_2_alg».proof.Defs
import proofs.«149646_j34445637714102_2_alg».proof.Proof.Gen.Kernel.Frame
import proofs.«149646_j34445637714102_2_alg».proof.Proof.Gen.KernelIdeal.Frame
import proofs.«149646_j34445637714102_2_alg».proof.Proof.Gen.ReferenceIdeal.Run
import proofs.«149646_j34445637714102_2_alg».proof.Proof.Gen.ReferenceIdeal.Read
import proofs.«149646_j34445637714102_2_alg».proof.Proof.Gen.Pre_finite_inputs
import proofs.«149646_j34445637714102_2_alg».proof.Proof.KValue
import proofs.«149646_j34445637714102_2_alg».proof.Proof.RefValue
import proofs.«149646_j34445637714102_2_alg».proof.Proof.Finite
import proofs.«149646_j34445637714102_2_alg».proof.Proof.Spec

/-!
# The claims

The three programs run (terminate, nothing faulting) with their arguments unchanged; the kernel's
idealization rewrote nothing; and at the extended reals the idealized kernel and the idealized
reference, started from memories that agree on the four arguments, end with equal results.

For the last: the kernel's result is attention with the softmax normalised last, the reference's is
attention with the softmax normalised first, both of the same four arrays.  The precondition says
that every entry of the four arrays is a real number, and on real inputs the two normalisations
agree: every softmax weight is a positive real, so is their total `L`, and over the reals
`(Σ_k w_k · v_k) / L = Σ_k (w_k / L) · v_k`.
-/

noncomputable section

open Idealize.ShloMosaic Idealize.ShloMosaic.TcCoe Idealize.SL.Sem

namespace Cert.Proof.AttnClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- At the extended reals, from memories agreeing on the arguments, both programs run and end with the same result:
    the attention of the four argument arrays. The kernel's normalises the softmax last, the reference's first; the
    precondition makes every input entry real, and on real inputs the two agree. -/
theorem algebraic (hO : Cert.KernelIdeal.AttnValue.OutFact) (hK : Cert.KernelIdeal.AttnValue.KFact)
    (hV : Cert.KernelIdeal.AttnValue.VFact) : Cert.algebraic_KernelIdeal_ReferenceIdeal := by
  intro m ρ m' ρ' hpre hagree
  refine ⟨fun c => Cert.Attn.attnLast
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.AttnValue.run_value m ρ hO hK hV, ?_⟩
  refine (θ_run Cert.ReferenceIdeal.defs _ _).mono (fun _ h c => ⟨(h c).1.trans ?_, (h c).2⟩)
    (Cert.ReferenceIdeal.Value.run (F := Ideal) m' ρ')
  have hr := Cert.Attn.Finite.real_of_pre _ _ _ _ (hpre c)
  refine (Cert.ReferenceIdeal.Read.val_main_v17_eq (F := Ideal) _ _ _ _).trans ?_
  refine (Cert.ReferenceIdeal.RefValue.ref_eq _ _ _ _).trans ?_
  rw [(hagree c).1, (hagree c).2.1, (hagree c).2.2.1, (hagree c).2.2.2]
  exact Cert.Attn.attnFirst_eq_attnLast hr.1 hr.2.1 hr.2.2.1 hr.2.2.2

end Cert.Proof.AttnClaims
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.KBody0.lean ====
/-
  The projection kernel's body read at an index, on the extended reals.

  One call of the body sees a tile of 512 rows of one batch (x0, [1, 512, 1024]) and the key and value weights laid
  side by side (x1, [1024, 128]: columns 0 … 63 the key weights, columns 64 … 127 the value weights). It forms the
  one product
    both (p, c) = Σ_d x0 (0, p, d) · x1 (d, c)
  and stores its left half (columns 0 … 63) as the tile's keys and its right half (columns 64 … 127) as the tile's
  values, each as a [1, 512, 64] block. Changes of float format are the identity here, a reshape that only adds or
  drops a leading unit axis reads the same entry, a reshape to the same shape is the identity, and a matrix product
  into the zero accumulator is the plain sum over the shared axis. So the stored blocks, at (0, p, h), are
    Σ_d x0 (0, p, d) · x1 (d, h)      and      Σ_d x0 (0, p, d) · x1 (d, 64 + h).
-/
import proofs.«149646_j34445637714102_2_alg».proof.Proof.Gen.KernelIdeal.Skeleton
import proofs.«149646_j34445637714102_2_alg».proof.Proof.LibDense
import proofs.«149646_j34445637714102_2_alg».proof.Proof.LibTiles
import Idealize.ShloMosaic.Lib.ValueLayout

noncomputable section

namespace Cert.KernelIdeal.ProjBody

open Cert.KernelIdeal Cert.KernelIdeal.Gen Idealize.ShloMosaic Idealize.ShloMosaic.ValueIdx

variable (x0 : Vec Ideal S1x512x1024 .f32) (x1 : Vec Ideal S1024x128 .f32)

/-! ## The body's intermediate value, in the body's own operations -/

/-- The tile against the key and value weights at once. -/
def both : FVec Ideal S512x128 .f32 :=
  matmul dot_S512x1024_S1024x128_S512x128_1_0_0_1_n_n none
    (truncf .bf16 (shapeCast S512x1024 x0 shapeCasts_S1x512x1024_S512x1024) bitsLt_bf16_f32)
    (truncf .bf16 (shapeCast S1024x128 x1 shapeCasts_S1024x128_S1024x128) bitsLt_bf16_f32)
    (constant S512x128 .f32 0x00000000#32)

/-- The product the two stored blocks are cut from. -/
theorem pay1_eq : k0_pay1 x0 x1 = both x0 x1 := rfl

/-- The stored key block is the product's left half with a leading unit axis. -/
theorem payK_eq : k0_pay2 x0 x1
    = shapeCast S1x512x64 (extractStridedSlice S512x64 ![0, 0] (both x0 x1) slices_S512x128_o0_0_S512x64)
        shapeCasts_S512x64_S1x512x64 := rfl

/-- The stored value block is the product's right half with a leading unit axis. -/
theorem payV_eq : k0_pay3 x0 x1
    = shapeCast S1x512x64 (extractStridedSlice S512x64 ![0, 64] (both x0 x1) slices_S512x128_o0_64_S512x64)
        shapeCasts_S512x64_S1x512x64 := rfl

/-! ## The same values as sums, index by index -/

/-- The product at (p, c): row p of the tile against column c of the weights. -/
theorem both_apply (p : Fin 512) (c : Fin 128) :
    both x0 x1 (ix2 p c) = ∑ d : Fin 1024, x0 (ix3 (0 : Fin 1) p d) * x1 (ix2 d c) :=
  (Cert.LibDense.matmul_zero_plain dot_S512x1024_S1024x128_S512x128_1_0_0_1_n_n_wf none _ _ p c).trans
    (Finset.sum_congr rfl fun d _ => by
      show shapeCast S512x1024 x0 shapeCasts_S1x512x1024_S512x1024 (ix2 p d)
        * shapeCast S1024x128 x1 shapeCasts_S1024x128_S1024x128 (ix2 d c) = _
      exact congrArg₂ (· * ·) (shapeCast_1ab_ab_apply x0 shapeCasts_S1x512x1024_S512x1024 p d)
        (congrFun (shapeCast_self x1 shapeCasts_S1024x128_S1024x128) (ix2 d c)))

/-- The stored key block at (0, p, h): row p of the tile against column h of the weights. -/
theorem payK_apply (p : Fin 512) (h : Fin 64) :
    k0_pay2 x0 x1 (ix3 (0 : Fin 1) p h)
      = ∑ d : Fin 1024, x0 (ix3 (0 : Fin 1) p d) * x1 (ix2 d (⟨h.val, by omega⟩ : Fin 128)) := by
  rw [payK_eq]
  refine (shapeCast_ab_1ab_apply _ shapeCasts_S512x64_S1x512x64 0 p h).trans ?_
  refine (Cert.LibTiles.sliceCols_apply 0 (both x0 x1) slices_S512x128_o0_0_S512x64 p h (by omega)).trans ?_
  have e : (⟨0 + h.val, by omega⟩ : Fin 128) = ⟨h.val, by omega⟩ := Fin.ext (Nat.zero_add _)
  exact (congrArg (fun c => both x0 x1 (ix2 p c)) e).trans (both_apply x0 x1 p _)

/-- The stored value block at (0, p, h): row p of the tile against column 64 + h of the weights. -/
theorem payV_apply (p : Fin 512) (h : Fin 64) :
    k0_pay3 x0 x1 (ix3 (0 : Fin 1) p h)
      = ∑ d : Fin 1024, x0 (ix3 (0 : Fin 1) p d) * x1 (ix2 d (⟨64 + h.val, by omega⟩ : Fin 128)) := by
  rw [payV_eq]
  refine (shapeCast_ab_1ab_apply _ shapeCasts_S512x64_S1x512x64 0 p h).trans ?_
  refine (Cert.LibTiles.sliceCols_apply 64 (both x0 x1) slices_S512x128_o0_64_S512x64 p h (by omega)).trans ?_
  exact both_apply x0 x1 p _

end Cert.KernelIdeal.ProjBody

end
-- ==== Proof.KArr0.lean ====
/-
  The projection region's two result arrays, as functions of the arrays the region finds.

  The region's grid is 4 batches by 8 row tiles. At point (b, i) the body reads rows 512·i … 512·i + 511 of batch b
  of x and the whole [1024, 128] weight array (key weights in columns 0 … 63, value weights in columns 64 … 127), and
  writes rows 512·i … 512·i + 511 of batch b of the key array and of the value array. What it writes at (0, p, h) is
  row p of its x block against column h, respectively column 64 + h, of the weights; row p of the block is row
  512·i + p of batch b of x. So each written block is a block of
    keys (b, s, h)   = Σ_d x (b, s, d) · W (d, h)          values (b, s, h) = Σ_d x (b, s, d) · W (d, 64 + h),
  and the blocks of the 32 points tile each array, so the arrays end holding these sums everywhere.
-/
import proofs.«149646_j34445637714102_2_alg».proof.Proof.Gen.KernelIdeal.Frame
import proofs.«149646_j34445637714102_2_alg».proof.Proof.KBody0
import Idealize.ShloMosaic.Lib.Pipeline.Value

set_option maxRecDepth 16384

noncomputable section

namespace Cert.KernelIdeal.ProjOut

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A block read from offset zero on every axis. -/
theorem off3 : (![0, 0, 0] : Fin 3 → Nat) = fun _ => 0 := funext fun a => by fin_cases a <;> rfl
theorem off2 : (![0, 0] : Fin 2 → Nat) = fun _ => 0 := funext fun a => by fin_cases a <;> rfl

/-! ## The two arrays as sums -/

/-- The x array and the weight array as the region finds them, as functions into the extended reals. -/
abbrev xArr (c : Dev nD) : S4x4096x1024.Idx → EReal := V c main_arg0
abbrev wArr (c : Dev nD) : S1024x128.Idx → EReal := V c main_v0

/-- Row (b, s) of x against column h of the weights. -/
def keyAt (X : S4x4096x1024.Idx → EReal) (W : S1024x128.Idx → EReal) (b : Fin 4) (s : Fin 4096) (h : Fin 64) : EReal :=
  ∑ d : Fin 1024, X (ix3 b s d) * W (ix2 d (⟨h.val, by omega⟩ : Fin 128))

/-- Row (b, s) of x against column 64 + h of the weights. -/
def valAt (X : S4x4096x1024.Idx → EReal) (W : S1024x128.Idx → EReal) (b : Fin 4) (s : Fin 4096) (h : Fin 64) : EReal :=
  ∑ d : Fin 1024, X (ix3 b s d) * W (ix2 d (⟨64 + h.val, by omega⟩ : Fin 128))

/-- The key array. -/
def keysOf (X : S4x4096x1024.Idx → EReal) (W : S1024x128.Idx → EReal) : S4x4096x64.Idx → EReal :=
  fun i => keyAt X W (i 0) (i 1) (i 2)

/-- The value array. -/
def valsOf (X : S4x4096x1024.Idx → EReal) (W : S1024x128.Idx → EReal) : S4x4096x64.Idx → EReal :=
  fun i => valAt X W (i 0) (i 1) (i 2)

/-! ## The index maps over the 32 grid points -/

/-- The x block moves with the key block, the weights stay, and the key block's indices stay in range. -/
theorem idxK : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 2) = 0 ∧ win0_1.index t (1 : Fin 2) = 0
    ∧ win0_2.index t (0 : Fin 3) ≤ 3 ∧ win0_2.index t (1 : Fin 3) ≤ 7 ∧ win0_2.index t (2 : Fin 3) = 0 :=
  (by decide +kernel : ∀ t : Fin grid0.N, _)

/-- The same for the value block. -/
theorem idxV : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_3.index t (0 : Fin 3) ≤ 3 ∧ win0_3.index t (1 : Fin 3) ≤ 7 ∧ win0_3.index t (2 : Fin 3) = 0 :=
  (by decide +kernel : ∀ t : Fin grid0.N, _)

/-- Every (batch, tile) pair is some point's key block, and some point's value block. -/
theorem ontoK : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

theorem ontoV : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-! ## One call of the body -/

/-- One call of the body on blocks that are rows o … o + 511 of batch b of X and the whole of W writes, into the key
    block at (u, p, h), the key array's entry at any index i whose coordinates are (b, o + p, h). -/
theorem blockK_eq (x0 : Vec Ideal S1x512x1024 .f32) (x1 : Vec Ideal S1024x128 .f32)
    (X : S4x4096x1024.Idx → EReal) (W : S1024x128.Idx → EReal) (b : Fin 4) (o : ℕ) (ho : o + 512 ≤ 4096)
    (h0 : ∀ (p : Fin 512) (d : Fin 1024), x0 (ix3 (0 : Fin 1) p d) = X (ix3 b (⟨o + p.val, by omega⟩ : Fin 4096) d))
    (h1 : ∀ (d : Fin 1024) (c : Fin 128), x1 (ix2 d c) = W (ix2 d c))
    (u : Fin 1) (p : Fin 512) (h : Fin 64) :
    k0_pay2 x0 x1 (ix3 u p h) = keyAt X W b (⟨o + p.val, by omega⟩ : Fin 4096) h := by
  have hu : u = 0 := Subsingleton.elim _ _
  subst hu
  rw [Cert.KernelIdeal.ProjBody.payK_apply]
  unfold keyAt
  simp only [h0, h1]

/-- The same for the value block. -/
theorem blockV_eq (x0 : Vec Ideal S1x512x1024 .f32) (x1 : Vec Ideal S1024x128 .f32)
    (X : S4x4096x1024.Idx → EReal) (W : S1024x128.Idx → EReal) (b : Fin 4) (o : ℕ) (ho : o + 512 ≤ 4096)
    (h0 : ∀ (p : Fin 512) (d : Fin 1024), x0 (ix3 (0 : Fin 1) p d) = X (ix3 b (⟨o + p.val, by omega⟩ : Fin 4096) d))
    (h1 : ∀ (d : Fin 1024) (c : Fin 128), x1 (ix2 d c) = W (ix2 d c))
    (u : Fin 1) (p : Fin 512) (h : Fin 64) :
    k0_pay3 x0 x1 (ix3 u p h) = valAt X W b (⟨o + p.val, by omega⟩ : Fin 4096) h := by
  have hu : u = 0 := Subsingleton.elim _ _
  subst hu
  rw [Cert.KernelIdeal.ProjBody.payV_apply]
  unfold valAt
  simp only [h0, h1]

/-- The key sum depends on its three coordinates only through their values. -/
theorem keyAt_congr (X : S4x4096x1024.Idx → EReal) (W : S1024x128.Idx → EReal) {b b' : Fin 4} {s s' : Fin 4096}
    {h h' : Fin 64} (hb : b.val = b'.val) (hs : s.val = s'.val) (hh : h.val = h'.val) :
    keyAt X W b s h = keyAt X W b' s' h' := by
  obtain rfl := Fin.ext hb; obtain rfl := Fin.ext hs; obtain rfl := Fin.ext hh; rfl

theorem valAt_congr (X : S4x4096x1024.Idx → EReal) (W : S1024x128.Idx → EReal) {b b' : Fin 4} {s s' : Fin 4096}
    {h h' : Fin 64} (hb : b.val = b'.val) (hs : s.val = s'.val) (hh : h.val = h'.val) :
    valAt X W b s h = valAt X W b' s' h' := by
  obtain rfl := Fin.ext hb; obtain rfl := Fin.ext hs; obtain rfl := Fin.ext hh; rfl

/-! ## What a point writes back -/

/-- The x block at point t is rows 512·i … of batch b of x, where (b, i) is the point's key block index. -/
theorem xblockK (c : Dev nD) (t : Fin cfg0.N) (hb : win0_2.index t (0 : Fin 3) < 4)
    (ho : win0_2.index t (1 : Fin 3) * 512 + 512 ≤ 4096) (p : Fin 512) (d : Fin 1024) :
    (iblk0 V c 0 t : Vec Ideal S1x512x1024 .f32) (ix3 (0 : Fin 1) p d)
      = (V c main_arg0 : S4x4096x1024.Idx → EReal)
          (ix3 (⟨win0_2.index t (0 : Fin 3), hb⟩ : Fin 4) (⟨win0_2.index t (1 : Fin 3) * 512 + p.val, by omega⟩ : Fin 4096) d) := by
  obtain ⟨e00, e01, e02, e10, e11, bK, qK, zK⟩ := idxK t
  show (V c main_arg0 : S4x4096x1024.Idx → EReal) (((cfg0.win 0).blk t).view.emb (ix3 (0 : Fin 1) p d)) = _
  refine congrArg (V c main_arg0 : S4x4096x1024.Idx → EReal) (funext fun a => Fin.ext ?_)
  match a with
  | ⟨0, _⟩ => show win0_0.index t (0 : Fin 3) * 1 + 1 * 0 = win0_2.index t (0 : Fin 3); omega
  | ⟨1, _⟩ => show win0_0.index t (1 : Fin 3) * 512 + 1 * p.val = win0_2.index t (1 : Fin 3) * 512 + p.val; omega
  | ⟨2, _⟩ => show win0_0.index t (2 : Fin 3) * 1024 + 1 * d.val = d.val; omega

/-- The weight block at every point is the whole weight array. -/
theorem wblock (c : Dev nD) (t : Fin cfg0.N) (d : Fin 1024) (cc : Fin 128) :
    (iblk0 V c 1 t : Vec Ideal S1024x128 .f32) (ix2 d cc) = (V c main_v0 : S1024x128.Idx → EReal) (ix2 d cc) := by
  obtain ⟨e00, e01, e02, e10, e11, bK, qK, zK⟩ := idxK t
  show (V c main_v0 : S1024x128.Idx → EReal) (((cfg0.win 1).blk t).view.emb (ix2 d cc)) = _
  refine congrArg (V c main_v0 : S1024x128.Idx → EReal) (funext fun a => Fin.ext ?_)
  match a with
  | ⟨0, _⟩ => show win0_1.index t (0 : Fin 2) * 1024 + 1 * d.val = d.val; omega
  | ⟨1, _⟩ => show win0_1.index t (1 : Fin 2) * 128 + 1 * cc.val = cc.val; omega

/-- What point t writes back into the key array is block t of the key sums over the arrays the region finds. -/
theorem flushedK_eq (c : Dev nD) (t : Fin cfg0.N) :
    (dat0 V c).flushed 2 t = ((cfg0.win 2).blk t).view.read (Elt Ideal) (keysOf (V c main_arg0) (V c main_v0)) := by
  show (cfg0.win 2).cut (grid0.coords t) ((dat0 V c).after 2 t) = _
  rw [after0_2]
  unfold out0_2
  rw [View.canon_unit_zero off3]
  simp only [View.ld_unit_zero (S := S1x512x1024) off3, View.ld_unit_zero (S := S1024x128) off2]
  obtain ⟨e00, e01, e02, e10, e11, bK, qK, zK⟩ := idxK t
  have hb : win0_2.index t (0 : Fin 3) < 4 := by omega
  have ho : win0_2.index t (1 : Fin 3) * 512 + 512 ≤ 4096 := by omega
  funext j
  show k0_pay2 (iblk0 V c 0 t) (iblk0 V c 1 t) j
    = keysOf (V c main_arg0) (V c main_v0) (((cfg0.win 2).blk t).view.emb j)
  have hj0 : (j 0).val < 1 := (j 0).isLt
  have hj1 : (j 1).val < 512 := (j 1).isLt
  have hj2 : (j 2).val < 64 := (j 2).isLt
  refine ((congrArg (k0_pay2 (iblk0 V c 0 t) (iblk0 V c 1 t)) (@eq_ix3 1 512 64 j)).trans
    (blockK_eq (iblk0 V c 0 t) (iblk0 V c 1 t) (V c main_arg0) (V c main_v0)
      (⟨win0_2.index t (0 : Fin 3), hb⟩ : Fin 4) (win0_2.index t (1 : Fin 3) * 512) ho
      (xblockK V c t hb ho) (wblock V c t) (j 0) (j 1) (j 2))).trans ?_
  refine keyAt_congr _ _ ?_ ?_ ?_
  · show win0_2.index t (0 : Fin 3) = win0_2.index t (0 : Fin 3) * 1 + 1 * (j 0).val; omega
  · show win0_2.index t (1 : Fin 3) * 512 + (j 1).val = win0_2.index t (1 : Fin 3) * 512 + 1 * (j 1).val; omega
  · show (j 2).val = win0_2.index t (2 : Fin 3) * 64 + 1 * (j 2).val; omega

/-- The x block at point t is rows 512·i … of batch b of x, where (b, i) is the point's value block index. -/
theorem xblockV (c : Dev nD) (t : Fin cfg0.N) (hb : win0_3.index t (0 : Fin 3) < 4)
    (ho : win0_3.index t (1 : Fin 3) * 512 + 512 ≤ 4096) (p : Fin 512) (d : Fin 1024) :
    (iblk0 V c 0 t : Vec Ideal S1x512x1024 .f32) (ix3 (0 : Fin 1) p d)
      = (V c main_arg0 : S4x4096x1024.Idx → EReal)
          (ix3 (⟨win0_3.index t (0 : Fin 3), hb⟩ : Fin 4) (⟨win0_3.index t (1 : Fin 3) * 512 + p.val, by omega⟩ : Fin 4096) d) := by
  obtain ⟨e00, e01, e02, e10, e11, bV, qV, zV⟩ := idxV t
  show (V c main_arg0 : S4x4096x1024.Idx → EReal) (((cfg0.win 0).blk t).view.emb (ix3 (0 : Fin 1) p d)) = _
  refine congrArg (V c main_arg0 : S4x4096x1024.Idx → EReal) (funext fun a => Fin.ext ?_)
  match a with
  | ⟨0, _⟩ => show win0_0.index t (0 : Fin 3) * 1 + 1 * 0 = win0_3.index t (0 : Fin 3); omega
  | ⟨1, _⟩ => show win0_0.index t (1 : Fin 3) * 512 + 1 * p.val = win0_3.index t (1 : Fin 3) * 512 + p.val; omega
  | ⟨2, _⟩ => show win0_0.index t (2 : Fin 3) * 1024 + 1 * d.val = d.val; omega

/-- What point t writes back into the value array is block t of the value sums over the arrays the region finds. -/
theorem flushedV_eq (c : Dev nD) (t : Fin cfg0.N) :
    (dat0 V c).flushed 3 t = ((cfg0.win 3).blk t).view.read (Elt Ideal) (valsOf (V c main_arg0) (V c main_v0)) := by
  show (cfg0.win 3).cut (grid0.coords t) ((dat0 V c).after 3 t) = _
  rw [after0_3]
  unfold out0_3
  rw [View.canon_unit_zero off3]
  simp only [View.ld_unit_zero (S := S1x512x1024) off3, View.ld_unit_zero (S := S1024x128) off2]
  obtain ⟨e00, e01, e02, e10, e11, bV, qV, zV⟩ := idxV t
  have hb : win0_3.index t (0 : Fin 3) < 4 := by omega
  have ho : win0_3.index t (1 : Fin 3) * 512 + 512 ≤ 4096 := by omega
  funext j
  show k0_pay3 (iblk0 V c 0 t) (iblk0 V c 1 t) j
    = valsOf (V c main_arg0) (V c main_v0) (((cfg0.win 3).blk t).view.emb j)
  have hj0 : (j 0).val < 1 := (j 0).isLt
  have hj1 : (j 1).val < 512 := (j 1).isLt
  have hj2 : (j 2).val < 64 := (j 2).isLt
  refine ((congrArg (k0_pay3 (iblk0 V c 0 t) (iblk0 V c 1 t)) (@eq_ix3 1 512 64 j)).trans
    (blockV_eq (iblk0 V c 0 t) (iblk0 V c 1 t) (V c main_arg0) (V c main_v0)
      (⟨win0_3.index t (0 : Fin 3), hb⟩ : Fin 4) (win0_3.index t (1 : Fin 3) * 512) ho
      (xblockV V c t hb ho) (wblock V c t) (j 0) (j 1) (j 2))).trans ?_
  refine valAt_congr _ _ ?_ ?_ ?_
  · show win0_3.index t (0 : Fin 3) = win0_3.index t (0 : Fin 3) * 1 + 1 * (j 0).val; omega
  · show win0_3.index t (1 : Fin 3) * 512 + (j 1).val = win0_3.index t (1 : Fin 3) * 512 + 1 * (j 1).val; omega
  · show (j 2).val = win0_3.index t (2 : Fin 3) * 64 + 1 * (j 2).val; omega

/-! ## The blocks tile the arrays -/

/-- An index of the key array is in point t's block iff each coordinate is in the block's range on its axis. -/
theorem memK (t : Fin cfg0.N) (i : S4x4096x64.Idx) :
    i ∈ ((cfg0.win 2).blk t).view.set ↔ ∀ a : Fin 3, win0_2.index t a * S1x512x64.size a ≤ (i a).val
      ∧ (i a).val < win0_2.index t a * S1x512x64.size a + S1x512x64.size a := by
  show i ∈ ((View.whole main_v1_0).slice (win0_2.rect t)).set ↔ _
  rw [View.set_slice_whole, Rect.mem_set_unit]
  exact Iff.rfl

/-- The same for the value array. -/
theorem memV (t : Fin cfg0.N) (i : S4x4096x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v1_1).slice (win0_3.rect t)).set ↔ _
  rw [View.set_slice_whole, Rect.mem_set_unit]
  exact Iff.rfl

/-- Row s of batch b of the key array is in the block of the point with block index (b, s / 512, 0). -/
theorem coverK (i : S4x4096x64.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := ontoK ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [memK]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- The same for the value array. -/
theorem coverV (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := ontoV ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [memV]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-! ## The arrays after the region -/

/-- The key array ends holding the key sums everywhere. -/
theorem arrK (c : Dev nD) : (dat0 V c).arrAt 2 cfg0.N = keysOf (V c main_arg0) (V c main_v0) :=
  (dat0 V c).arrAt_eq_of_cover 2 (keysOf (V c main_arg0) (V c main_v0)) (fun t _ => flushedK_eq V c t) coverK

/-- The value array ends holding the value sums everywhere. -/
theorem arrV (c : Dev nD) : (dat0 V c).arrAt 3 cfg0.N = valsOf (V c main_arg0) (V c main_v0) :=
  (dat0 V c).arrAt_eq_of_cover 3 (valsOf (V c main_arg0) (V c main_v0)) (fun t _ => flushedV_eq V c t) coverV

/-- The key array at (b, s, h): row (b, s) of x against column h of the weights. -/
theorem final_k (c : Dev nD) (b : Fin 4) (s : Fin 4096) (h : Fin 64) :
    (dat0 V c).arrAt 2 cfg0.N (ix3 b s h)
      = ∑ d : Fin 1024, xArr V c (ix3 b s d) * wArr V c (ix2 d (⟨h.val, by omega⟩ : Fin 128)) :=
  congrFun (arrK V c) (ix3 b s h)

/-- The value array at (b, s, h): row (b, s) of x against column 64 + h of the weights. -/
theorem final_v (c : Dev nD) (b : Fin 4) (s : Fin 4096) (h : Fin 64) :
    (dat0 V c).arrAt 3 cfg0.N (ix3 b s h)
      = ∑ d : Fin 1024, xArr V c (ix3 b s d) * wArr V c (ix2 d (⟨64 + h.val, by omega⟩ : Fin 128)) :=
  congrFun (arrV V c) (ix3 b s h)

end Cert.KernelIdeal.ProjOut

end
-- ==== Proof.LibDenseT.lean ====
/-
  General lemmas for a matrix product whose right operand is stored transposed, over variable extents, at the
  extended reals.

  * `trans_sum`: for the dimension numbers "M×K by N×K" (contract the left operand's axis 1 with the right
    operand's axis 1, no batch axis), the sum over the contraction index of the operands' products at the result
    index (i, j) is `∑ k : Fin K, l (i, k) * r (j, k)`.
  * `matmul_zero_trans` / `dotGeneral_trans`: hence a vector-unit matrix product into a zero accumulator, and the
    host's `dot_general`, read at (i, j), are both that sum.
-/
import Idealize.ShloMosaic.Lib.ValueIdx
import Idealize.ShloMosaic.Lib.Pipeline.Value
import Idealize.ShloMosaic.PureOps.Ideal.Laws

noncomputable section

namespace Cert.LibDenseT

open Idealize.ShloMosaic Idealize.ShloMosaic.ValueIdx

/-- The dimension numbers `<[1], [1], [0], [0], [], []>` over any well-formedness witness: two records with these
    axis lists differ only in that witness, so every printed record of this kind is one of these by unfolding. -/
abbrev transOf {M K N : Nat}
    (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  { lhsContracting := [1], rhsContracting := [1], lhsNonContracting := [0], rhsNonContracting := [0],
    lhsBatch := [], rhsBatch := [], wf := wf }

variable {M K N : Nat} (wf : DotDims.WF (⟨2, ![M, K]⟩ : Shape) ⟨2, ![N, K]⟩ ⟨2, ![M, N]⟩ [1] [1] [0] [0] [] [])

/-- The left operand's row is the result's row. -/
theorem lhs_row (i : (⟨2, ![M, N]⟩ : Shape).Idx) (q : (transOf wf).contr.Idx) :
    ((transOf wf).lhsIdx i q 0).val = (i 0).val := by
  unfold DotDims.lhsIdx
  rw [dif_neg (show ¬(0 : Fin 2) ∈ (transOf wf).lhsBatch from List.not_mem_nil),
    dif_pos (show (0 : Fin 2) ∈ (transOf wf).lhsNonContracting from List.mem_singleton.mpr rfl)]
  rfl

/-- The right operand's row is the result's column. -/
theorem rhs_row (i : (⟨2, ![M, N]⟩ : Shape).Idx) (q : (transOf wf).contr.Idx) :
    ((transOf wf).rhsIdx i q 0).val = (i 1).val := by
  unfold DotDims.rhsIdx
  rw [dif_neg (show ¬(0 : Fin 2) ∈ (transOf wf).rhsBatch from List.not_mem_nil),
    dif_pos (show (0 : Fin 2) ∈ (transOf wf).rhsNonContracting from List.mem_singleton.mpr rfl)]
  rfl

/-- The contraction sum at (i, j), re-indexed by the one contracted coordinate. -/
theorem trans_sum (l : (⟨2, ![M, K]⟩ : Shape).Idx → EReal) (r : (⟨2, ![N, K]⟩ : Shape).Idx → EReal)
    (i : Fin M) (j : Fin N) :
    ∑ q : (transOf wf).contr.Idx, l ((transOf wf).lhsIdx (ix2 i j) q) * r ((transOf wf).rhsIdx (ix2 i j) q)
      = ∑ k : Fin K, l (ix2 i k) * r (ix2 j k) := by
  rw [← Equiv.sum_comp (contrEquiv1 (transOf wf) K rfl rfl).symm]
  refine Finset.sum_congr rfl fun k _ => ?_
  have hk := contrEquiv1_symm_val (transOf wf) K rfl rfl k
  have el : (transOf wf).lhsIdx (ix2 i j) ((contrEquiv1 (transOf wf) K rfl rfl).symm k) = ix2 i k :=
    funext fun a => Fin.ext (by
      match a with
      | ⟨0, _⟩ => exact lhs_row wf _ _
      | ⟨1, _⟩ => exact ((transOf wf).lhsIdx_val_of_single rfl _ _).trans hk)
  have er : (transOf wf).rhsIdx (ix2 i j) ((contrEquiv1 (transOf wf) K rfl rfl).symm k) = ix2 j k :=
    funext fun a => Fin.ext (by
      match a with
      | ⟨0, _⟩ => exact rhs_row wf _ _
      | ⟨1, _⟩ => exact ((transOf wf).rhsIdx_val_of_single rfl _ _).trans hk)
  rw [el, er]

/-- A matrix product on the vector unit into the zero accumulator, read at (i, j). -/
theorem matmul_zero_trans {φ₁ φ₂ : FTy} (prec : Option ContractPrecision)
    (l : FVec Ideal (⟨2, ![M, K]⟩ : Shape) φ₁) (r : FVec Ideal (⟨2, ![N, K]⟩ : Shape) φ₂) (i : Fin M) (j : Fin N) :
    FloatOps.matmul (transOf wf) prec l r (constant (⟨2, ![M, N]⟩ : Shape) .f32 0x00000000#32) (ix2 i j)
      = ∑ k : Fin K, l (ix2 i k) * r (ix2 j k) :=
  (Ideal.matmul_constant_zero_apply (transOf wf) prec l r (ix2 i j)).trans (trans_sum wf l r i j)

/-- The host's `dot_general` with the same dimension numbers, read at (i, j): the same sum. -/
theorem dotGeneral_trans {φ₁ φ₂ : FTy} (prec : Option ContractPrecision) (sched : HostSchedule)
    (l : FVec Ideal (⟨2, ![M, K]⟩ : Shape) φ₁) (r : FVec Ideal (⟨2, ![N, K]⟩ : Shape) φ₂) (i : Fin M) (j : Fin N) :
    FloatOps.dotGeneral (transOf wf) prec sched l r (ix2 i j) = ∑ k : Fin K, l (ix2 i k) * r (ix2 j k) :=
  (Ideal.dotGeneral_apply (transOf wf) prec sched l r (ix2 i j)).trans (trans_sum wf l r i j)

end Cert.LibDenseT

end
-- ==== Proof.KBody1.lean ====
/-
  The attention kernel's body read at an index, on the extended reals.

  One call of the body sees a tile of 128 query rows of one batch (x0, [1, 128, 1024]), the query weights (x1,
  [1024, 64]) and that batch's whole K and V arrays (x2, x3, [1, 4096, 64]). It forms
    q (p, h)      = Σ_d x0 (0, p, d) · x1 (d, h)                    the tile's queries,
    s (p, k)      = (Σ_h q (p, h) · x2 (0, k, h)) · 1/8             the tile's scaled scores against every key row,
    w (p, k)      = exp (s (p, k) − max_k' s (p, k'))               the un-normalised softmax weights, the maximum folded from −∞,
    out (p, h)    = (Σ_k w (p, k) · x3 (0, k, h)) / (Σ_k w (p, k))  the weighted value rows over the total weight,
  and stores out as a [1, 128, 64] block. Changes of float format are the identity here, a matrix product into the zero
  accumulator is the plain sum over the shared axis, a lane maximum is the fold of max over the row and a lane sum the
  sum over the row. So the stored block, at (0, p, h), is the normalise-last soft decoding of the tile's logits matrix
  against the value matrix, at (p, h).
-/
import proofs.«149646_j34445637714102_2_alg».proof.Proof.Gen.KernelIdeal.Skeleton
import proofs.«149646_j34445637714102_2_alg».proof.Proof.Spec
import proofs.«149646_j34445637714102_2_alg».proof.Proof.LibRows
import proofs.«149646_j34445637714102_2_alg».proof.Proof.LibDense
import proofs.«149646_j34445637714102_2_alg».proof.Proof.LibDenseT
import Idealize.ShloMosaic.Lib.ValueLayout

noncomputable section

namespace Cert.KernelIdeal.AttnBody

open Cert.KernelIdeal Cert.KernelIdeal.Gen Idealize.ShloMosaic Idealize.ShloMosaic.ValueIdx

variable (x0 : Vec Ideal S1x128x1024 .f32) (x1 : Vec Ideal S1024x64 .f32) (x2 x3 : Vec Ideal S1x4096x64 .f32)

/-! ## The body's intermediate values, in the body's own operations -/

/-- The tile's queries: the tile against the query weights. -/
def queries : FVec Ideal S128x64 .f32 :=
  matmul dot_S128x1024_S1024x64_S128x64_1_0_0_1_n_n none
    (truncf .bf16 (shapeCast S128x1024 x0 shapeCasts_S1x128x1024_S128x1024) bitsLt_bf16_f32)
    (truncf .bf16 x1 bitsLt_bf16_f32) (constant S128x64 .f32 0x00000000#32)

/-- The tile's scaled scores: queries against every key row, times 1/8. -/
def scores : FVec Ideal S128x4096 .f32 :=
  mulf (matmul dot_S128x64_S4096x64_S128x4096_1_1_0_0_n_n none (truncf .bf16 (queries x0 x1) bitsLt_bf16_f32)
      (truncf .bf16 (shapeCast S4096x64 x2 shapeCasts_S1x4096x64_S4096x64) bitsLt_bf16_f32)
      (constant S128x4096 .f32 0x00000000#32))
    (broadcast S128x4096 (Scalar.ofBits .f32 0x3E000000#32))

/-- The un-normalised softmax weights: exp of each score minus its row's maximum. -/
def weights : FVec Ideal S128x4096 .f32 :=
  exp (subf (scores x0 x1 x2)
    (broadcastTo S128x4096
      (shapeCast S128x1 (multiReduction .maximumf [1] S128 (scores x0 x1 x2) 0xFF800000#32 reduces_S128x4096_S128 (.inl rfl) rfl)
        shapeCasts_S128_S128x1) broadcasts_S128x1_S128x4096))

/-- The tile's output: weighted value rows over the rows' total weights. -/
def outTile : FVec Ideal S128x64 .f32 :=
  divf (matmul dot_S128x4096_S4096x64_S128x64_1_0_0_1_n_n none (truncf .bf16 (weights x0 x1 x2) bitsLt_bf16_f32)
      (truncf .bf16 (shapeCast S4096x64 x3 shapeCasts_S1x4096x64_S4096x64) bitsLt_bf16_f32)
      (constant S128x64 .f32 0x00000000#32))
    (broadcastTo S128x64
      (shapeCast S128x1 (multiReduction .add [1] S128 (weights x0 x1 x2) 0x00000000#32 reduces_S128x4096_S128 (.inl rfl) rfl)
        shapeCasts_S128_S128x1) broadcasts_S128x1_S128x64)

/-- The stored block is the output tile with a leading unit axis. -/
theorem pay_eq : k1_pay1 x0 x1 x2 x3 = shapeCast S1x128x64 (outTile x0 x1 x2 x3) shapeCasts_S128x64_S1x128x64 := rfl

/-! ## The same values as sums, index by index -/

/-- The tile's logits matrix. -/
def tileLogits : (⟨2, ![128, 4096]⟩ : Shape).Idx → EReal :=
  fun j => (∑ h : Fin 64, (∑ d : Fin 1024, x0 (ix3 (0 : Fin 1) (j 0) d) * x1 (ix2 d h)) * x2 (ix3 (0 : Fin 1) (j 1) h))
    * Cert.Attn.scale

/-- The batch's value matrix. -/
def tileValues : (⟨2, ![4096, 64]⟩ : Shape).Idx → EReal := fun j => x3 (ix3 (0 : Fin 1) (j 0) (j 1))

theorem queries_apply (p : Fin 128) (h : Fin 64) :
    queries x0 x1 (ix2 p h) = ∑ d : Fin 1024, x0 (ix3 (0 : Fin 1) p d) * x1 (ix2 d h) :=
  (Cert.LibDense.matmul_zero_plain dot_S128x1024_S1024x64_S128x64_1_0_0_1_n_n_wf none _ _ p h).trans
    (Finset.sum_congr rfl fun d _ =>
      congrArg (· * x1 (ix2 d h)) (shapeCast_1ab_ab_apply x0 shapeCasts_S1x128x1024_S128x1024 p d))

theorem scores_apply (p : Fin 128) (k : Fin 4096) : scores x0 x1 x2 (ix2 p k) = tileLogits x0 x1 x2 (ix2 p k) := by
  show (matmul dot_S128x64_S4096x64_S128x4096_1_1_0_0_n_n none (truncf .bf16 (queries x0 x1) bitsLt_bf16_f32)
      (truncf .bf16 (shapeCast S4096x64 x2 shapeCasts_S1x4096x64_S4096x64) bitsLt_bf16_f32)
      (constant S128x4096 .f32 0x00000000#32)) (ix2 p k) * Cert.Attn.scale = _
  refine congrArg (· * Cert.Attn.scale) ?_
  refine (Cert.LibDenseT.matmul_zero_trans dot_S128x64_S4096x64_S128x4096_1_1_0_0_n_n_wf none _ _ p k).trans ?_
  refine Finset.sum_congr rfl fun h _ => ?_
  show queries x0 x1 (ix2 p h) * shapeCast S4096x64 x2 shapeCasts_S1x4096x64_S4096x64 (ix2 k h) = _
  rw [queries_apply, shapeCast_1ab_ab_apply]

theorem weights_apply (p : Fin 128) (k : Fin 4096) :
    weights x0 x1 x2 (ix2 p k) = Cert.SoftDecode.weight (tileLogits x0 x1 x2) p k := by
  show Ideal.exp (scores x0 x1 x2 (ix2 p k) - broadcastTo S128x4096
      (shapeCast S128x1 (multiReduction .maximumf [1] S128 (scores x0 x1 x2) 0xFF800000#32 reduces_S128x4096_S128 (.inl rfl) rfl)
        shapeCasts_S128_S128x1) broadcasts_S128x1_S128x4096 (ix2 p k)) = _
  have hm : broadcastTo S128x4096
      (shapeCast S128x1 (multiReduction .maximumf [1] S128 (scores x0 x1 x2) 0xFF800000#32 reduces_S128x4096_S128 (.inl rfl) rfl)
        shapeCasts_S128_S128x1) broadcasts_S128x1_S128x4096 (ix2 p k)
      = Cert.SoftDecode.rowMax (tileLogits x0 x1 x2) p :=
    ((Cert.LibRows.column_spread_apply _ shapeCasts_S128_S128x1 broadcasts_S128x1_S128x4096 p k).trans
      (Cert.LibRows.rowMax_apply (scores x0 x1 x2) 0xFF800000#32 reduces_S128x4096_S128 (.inl rfl) rfl p)).trans
      (congrArg (fun f => Finset.fold max (Ideal.ofBits .f32 0xFF800000#32) f (Finset.univ : Finset (Fin 4096)))
        (funext fun k' => scores_apply x0 x1 x2 p k'))
  rw [hm, scores_apply]
  rfl

theorem outTile_apply (p : Fin 128) (h : Fin 64) :
    outTile x0 x1 x2 x3 (ix2 p h) = Cert.SoftDecode.decoded (tileLogits x0 x1 x2) (tileValues x3) (ix2 p h) := by
  show Ideal.div ((matmul dot_S128x4096_S4096x64_S128x64_1_0_0_1_n_n none (truncf .bf16 (weights x0 x1 x2) bitsLt_bf16_f32)
      (truncf .bf16 (shapeCast S4096x64 x3 shapeCasts_S1x4096x64_S4096x64) bitsLt_bf16_f32)
      (constant S128x64 .f32 0x00000000#32)) (ix2 p h))
    (broadcastTo S128x64
      (shapeCast S128x1 (multiReduction .add [1] S128 (weights x0 x1 x2) 0x00000000#32 reduces_S128x4096_S128 (.inl rfl) rfl)
        shapeCasts_S128_S128x1) broadcasts_S128x1_S128x64 (ix2 p h)) = _
  have hnum : (matmul dot_S128x4096_S4096x64_S128x64_1_0_0_1_n_n none (truncf .bf16 (weights x0 x1 x2) bitsLt_bf16_f32)
      (truncf .bf16 (shapeCast S4096x64 x3 shapeCasts_S1x4096x64_S4096x64) bitsLt_bf16_f32)
      (constant S128x64 .f32 0x00000000#32)) (ix2 p h)
      = ∑ k : Fin 4096, Cert.SoftDecode.weight (tileLogits x0 x1 x2) p k * tileValues x3 (ix2 k h) :=
    (Cert.LibDense.matmul_zero_plain dot_S128x4096_S4096x64_S128x64_1_0_0_1_n_n_wf none _ _ p h).trans
      (Finset.sum_congr rfl fun k _ => by
        show weights x0 x1 x2 (ix2 p k) * shapeCast S4096x64 x3 shapeCasts_S1x4096x64_S4096x64 (ix2 k h) = _
        rw [weights_apply, shapeCast_1ab_ab_apply]; rfl)
  have hden : broadcastTo S128x64
      (shapeCast S128x1 (multiReduction .add [1] S128 (weights x0 x1 x2) 0x00000000#32 reduces_S128x4096_S128 (.inl rfl) rfl)
        shapeCasts_S128_S128x1) broadcasts_S128x1_S128x64 (ix2 p h)
      = ∑ k : Fin 4096, Cert.SoftDecode.weight (tileLogits x0 x1 x2) p k :=
    ((Cert.LibRows.column_spread_apply _ shapeCasts_S128_S128x1 broadcasts_S128x1_S128x64 p h).trans
      (Cert.LibRows.rowSum_apply (weights x0 x1 x2) 0x00000000#32 reduces_S128x4096_S128 (.inl rfl) rfl p)).trans
      (Finset.sum_congr rfl fun k _ => weights_apply x0 x1 x2 p k)
  rw [hnum, hden]
  rfl

/-- The stored block at (0, p, h): the soft decoding of the tile's logits against the values, at (p, h). -/
theorem pay_apply (p : Fin 128) (h : Fin 64) :
    k1_pay1 x0 x1 x2 x3 (ix3 (0 : Fin 1) p h)
      = Cert.SoftDecode.decoded (tileLogits x0 x1 x2) (tileValues x3) (ix2 p h) := by
  rw [pay_eq]
  exact (shapeCast_ab_1ab_apply (outTile x0 x1 x2 x3) shapeCasts_S128x64_S1x128x64 0 p h).trans
    (outTile_apply x0 x1 x2 x3 p h)

end Cert.KernelIdeal.AttnBody

end
-- ==== Proof.KArr1.lean ====
/-
  The second region's result array, as one function of the arrays the region finds.

  The region's grid is 4 batches by 32 query tiles. At point (b, qi) the body reads rows qi·128 … qi·128 + 127 of batch
  b of x, the whole query weights, and batch b's whole K and V arrays, and writes rows qi·128 … of batch b of the
  result. What it writes at (0, p, h) is the soft decoding of the tile's logits at (p, h), and the tile's row p is the
  whole logits matrix's row qi·128 + p, so the written block is a block of the normalise-last attention over the K and
  V arrays. The blocks of the 128 points tile the result array, so the array ends holding that attention everywhere.
-/
import proofs.«149646_j34445637714102_2_alg».proof.Proof.Gen.KernelIdeal.Frame
import proofs.«149646_j34445637714102_2_alg».proof.Proof.KBody1
import proofs.«149646_j34445637714102_2_alg».proof.Proof.SpecKV
import Idealize.ShloMosaic.Lib.Pipeline.Value

set_option maxRecDepth 16384

noncomputable section

namespace Cert.KernelIdeal.AttnOut

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the 128 grid points: the query tile moves with the output block, the weights stay, K and V
    follow the batch only. -/
theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 2) = 0 ∧ win1_1.index t (1 : Fin 2) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 3 ∧ win1_4.index t (1 : Fin 3) ≤ 31 ∧ win1_4.index t (2 : Fin 3) = 0 :=
  (by decide +kernel : ∀ t : Fin grid1.N, _)

/-- Every (batch, tile) pair is some point's output block. -/
theorem idx_onto : ∀ (q0 : Fin 4) (q1 : Fin 32), ∃ t : Fin cfg1.N, win1_4.index t = ![q0.val, q1.val, 0] :=
  (by decide +kernel : ∀ (q0 : Fin 4) (q1 : Fin 32), ∃ t : Fin grid1.N, win1_4.index t = ![q0.val, q1.val, 0])

/-- One call of the body on blocks that are rows o … o + 127 of batch b of x, the weights, and batch b of K and V,
    writes at (u, p, h) the attention over those arrays at (b, o + p, h). -/
theorem tile_eq (x0 : Vec Ideal S1x128x1024 .f32) (x1 : Vec Ideal S1024x64 .f32) (x2 x3 : Vec Ideal S1x4096x64 .f32)
    (X : Cert.Attn.SX.Idx → EReal) (Wq : Cert.Attn.SW.Idx → EReal) (Kk Vv : Cert.Attn.SO.Idx → EReal)
    (b : Fin 4) (o : ℕ) (ho : o + 128 ≤ 4096)
    (h0 : ∀ (p : Fin 128) (d : Fin 1024), x0 (ix3 (0 : Fin 1) p d) = X (ix3 b (⟨o + p.val, by omega⟩ : Fin 4096) d))
    (h1 : ∀ (d : Fin 1024) (h : Fin 64), x1 (ix2 d h) = Wq (ix2 d h))
    (h2 : ∀ (k : Fin 4096) (h : Fin 64), x2 (ix3 (0 : Fin 1) k h) = Kk (ix3 b k h))
    (h3 : ∀ (k : Fin 4096) (h : Fin 64), x3 (ix3 (0 : Fin 1) k h) = Vv (ix3 b k h))
    (u : Fin 1) (p : Fin 128) (h : Fin 64) :
    k1_pay1 x0 x1 x2 x3 (ix3 u p h)
      = Cert.Attn.attnKV X Wq Kk Vv (ix3 b (⟨o + p.val, by omega⟩ : Fin 4096) h) := by
  have hu : u = 0 := Subsingleton.elim _ _
  subst hu
  rw [Cert.KernelIdeal.AttnBody.pay_apply]
  show _ = Cert.SoftDecode.decoded (Cert.Attn.logitsK X Wq Kk b) (Cert.Attn.valuesV Vv b)
    (ix2 (⟨o + p.val, by omega⟩ : Fin 4096) h)
  have hC : Cert.KernelIdeal.AttnBody.tileValues x3 = Cert.Attn.valuesV Vv b := funext fun j => h3 (j 0) (j 1)
  rw [hC]
  refine Cert.Attn.decoded_row_congr _ _ _ p (⟨o + p.val, by omega⟩ : Fin 4096) h fun k => ?_
  show (∑ h' : Fin 64, (∑ d : Fin 1024, x0 (ix3 (0 : Fin 1) p d) * x1 (ix2 d h')) * x2 (ix3 (0 : Fin 1) k h')) * Cert.Attn.scale
    = (∑ h' : Fin 64, (∑ d : Fin 1024, X (ix3 b (⟨o + p.val, by omega⟩ : Fin 4096) d) * Wq (ix2 d h')) * Kk (ix3 b k h')) * Cert.Attn.scale
  simp only [h0, h1, h2]

/-- What point `t` writes back is block `t` of the attention over the arrays the region finds. -/
theorem flushed_eq (c : Dev nD) (t : Fin cfg1.N) :
    (dat1 V c).flushed 4 t = ((cfg1.win 4).blk t).view.read (Elt Ideal)
      (Cert.Attn.attnKV (V c main_arg0) (V c main_arg1) (V c main_v1_0) (V c main_v1_1)) := by
  show (cfg1.win 4).cut (grid1.coords t) ((dat1 V c).after 4 t) = _
  rw [after1_4]
  unfold out1_4
  rw [View.canon_unit_zero hz3]
  simp only [View.ld_unit_zero (S := S1x128x1024) hz3, View.ld_unit_zero (S := S1024x64) hz2,
    View.ld_unit_zero (S := S1x4096x64) hz3]
  obtain ⟨e00, e01, e02, e10, e11, e20, e21, e22, e30, e31, e32, b4, q4, z4⟩ := idx_facts t
  funext j
  show k1_pay1 (iblk1 V c 0 t) (iblk1 V c 1 t) (iblk1 V c 2 t) (iblk1 V c 3 t) j
    = Cert.Attn.attnKV (V c main_arg0) (V c main_arg1) (V c main_v1_0) (V c main_v1_1) (((cfg1.win 4).blk t).view.emb j)
  refine (congrArg (k1_pay1 (iblk1 V c 0 t) (iblk1 V c 1 t) (iblk1 V c 2 t) (iblk1 V c 3 t))
    (eq_ix3 (n0 := 1) (n1 := 128) (n2 := 64) j)).trans ?_
  refine (tile_eq (iblk1 V c 0 t) (iblk1 V c 1 t) (iblk1 V c 2 t) (iblk1 V c 3 t)
    (V c main_arg0) (V c main_arg1) (V c main_v1_0) (V c main_v1_1)
    (⟨win1_4.index t (0 : Fin 3), by omega⟩ : Fin 4) (win1_4.index t (1 : Fin 3) * 128) (by omega) ?_ ?_ ?_ ?_ (j 0) (j 1) (j 2)).trans ?_
  · intro p d
    show V c main_arg0 (((cfg1.win 0).blk t).view.emb (ix3 (0 : Fin 1) p d)) = _
    refine congrArg (V c main_arg0) (funext fun a => Fin.ext ?_)
    match a with
    | ⟨0, _⟩ => show win1_0.index t (0 : Fin 3) * 1 + 1 * 0 = win1_4.index t (0 : Fin 3); omega
    | ⟨1, _⟩ => show win1_0.index t (1 : Fin 3) * 128 + 1 * p.val = win1_4.index t (1 : Fin 3) * 128 + p.val; omega
    | ⟨2, _⟩ => show win1_0.index t (2 : Fin 3) * 1024 + 1 * d.val = d.val; omega
  · intro d h
    show V c main_arg1 (((cfg1.win 1).blk t).view.emb (ix2 d h)) = _
    refine congrArg (V c main_arg1) (funext fun a => Fin.ext ?_)
    match a with
    | ⟨0, _⟩ => show win1_1.index t (0 : Fin 2) * 1024 + 1 * d.val = d.val; omega
    | ⟨1, _⟩ => show win1_1.index t (1 : Fin 2) * 64 + 1 * h.val = h.val; omega
  · intro k h
    show V c main_v1_0 (((cfg1.win 2).blk t).view.emb (ix3 (0 : Fin 1) k h)) = _
    refine congrArg (V c main_v1_0) (funext fun a => Fin.ext ?_)
    match a with
    | ⟨0, _⟩ => show win1_2.index t (0 : Fin 3) * 1 + 1 * 0 = win1_4.index t (0 : Fin 3); omega
    | ⟨1, _⟩ => show win1_2.index t (1 : Fin 3) * 4096 + 1 * k.val = k.val; omega
    | ⟨2, _⟩ => show win1_2.index t (2 : Fin 3) * 64 + 1 * h.val = h.val; omega
  · intro k h
    show V c main_v1_1 (((cfg1.win 3).blk t).view.emb (ix3 (0 : Fin 1) k h)) = _
    refine congrArg (V c main_v1_1) (funext fun a => Fin.ext ?_)
    match a with
    | ⟨0, _⟩ => show win1_3.index t (0 : Fin 3) * 1 + 1 * 0 = win1_4.index t (0 : Fin 3); omega
    | ⟨1, _⟩ => show win1_3.index t (1 : Fin 3) * 4096 + 1 * k.val = k.val; omega
    | ⟨2, _⟩ => show win1_3.index t (2 : Fin 3) * 64 + 1 * h.val = h.val; omega
  · refine congrArg (Cert.Attn.attnKV (V c main_arg0) (V c main_arg1) (V c main_v1_0) (V c main_v1_1)) (funext fun a => Fin.ext ?_)
    have hj0 : (j 0).val < 1 := (j 0).isLt
    have hj1 : (j 1).val < 128 := (j 1).isLt
    have hj2 : (j 2).val < 64 := (j 2).isLt
    match a with
    | ⟨0, _⟩ => show win1_4.index t (0 : Fin 3) = win1_4.index t (0 : Fin 3) * 1 + 1 * (j 0).val; omega
    | ⟨1, _⟩ => show win1_4.index t (1 : Fin 3) * 128 + (j 1).val = win1_4.index t (1 : Fin 3) * 128 + 1 * (j 1).val; omega
    | ⟨2, _⟩ => show (j 2).val = win1_4.index t (2 : Fin 3) * 64 + 1 * (j 2).val; omega

/-- An index of the result array is in point `t`'s block iff each coordinate is in the block's range on its axis. -/
theorem mem_blk (t : Fin cfg1.N) (i : S4x4096x64.Idx) :
    i ∈ ((cfg1.win 4).blk t).view.set ↔ ∀ a : Fin 3, win1_4.index t a * S1x128x64.size a ≤ (i a).val
      ∧ (i a).val < win1_4.index t a * S1x128x64.size a + S1x128x64.size a := by
  show i ∈ ((View.whole main_v2).slice (win1_4.rect t)).set ↔ _
  rw [View.set_slice_whole, Rect.mem_set_unit]
  exact Iff.rfl

/-- Every index of the result array lies in some point's block: batch b, rows (s / 128)·128 …. -/
theorem cover (i : S4x4096x64.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 128, by omega⟩
  have q0 : win1_4.index t (0 : Fin 3) = (i 0).val := congrFun ht 0
  have q1 : win1_4.index t (1 : Fin 3) = (i 1).val / 128 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 128 ≤ (i 1).val ∧ (i 1).val < win1_4.index t (1 : Fin 3) * 128 + 128; omega
  | ⟨2, _⟩ => show win1_4.index t (2 : Fin 3) * 64 ≤ (i 2).val ∧ (i 2).val < win1_4.index t (2 : Fin 3) * 64 + 64; omega

/-- The result array after the region: the normalise-last attention over the arrays the region finds. -/
theorem final (c : Dev nD) : (dat1 V c).arrAt 4 cfg1.N
    = Cert.Attn.attnKV (V c main_arg0) (V c main_arg1) (V c main_v1_0) (V c main_v1_1) :=
  (dat1 V c).arrAt_eq_of_cover 4 _ (fun t _ => flushed_eq V c t) cover

end Cert.KernelIdeal.AttnOut

end
-- ==== Proof.lean ====
/-
  Single-head attention over a batch: a two-region kernel against its reference, at the extended reals.

  Both programs take x [4, 4096, 1024] and weights Wq, Wk, Wv [1024, 64] and compute Q = x·Wq, K = x·Wk, V = x·Wv, the
  scaled scores (Q·Kᵀ)·1/8, their softmax along the key axis, and the softmax-weighted sum of the rows of V.

  The kernel does it in two regions. The first multiplies tiles of 512 rows of x by the joined matrix [Wk | Wv] and
  splits the product's columns into the K and V arrays. The second, per tile of 128 query rows of one batch, forms the
  tile's queries, its scores against that batch's whole K, the un-normalised weights exp (score − row maximum), the
  weighted sum of the rows of V, and divides by the row's total weight LAST. The reference forms the whole score array,
  divides each weight by its row's total FIRST, and then takes the weighted sum.

  Changes of float format are the identity on the extended reals, and products into a zero accumulator are plain sums, so
  the kernel's result is the normalise-last attention of the four arguments and the reference's the normalise-first
  one. The two differ only in where the division by the row total L sits: (Σ_k w_k·v_k) / L against Σ_k (w_k / L)·v_k.
  That identity needs real numbers: the precondition makes every input entry real, hence every projection, score and
  value real, every weight a positive real and L a positive real, and over the reals the two sides agree.

  The three programs also run to the end without a fault and leave their arguments unchanged, and the idealization
  rewrote no operation.
-/
import proofs.«149646_j34445637714102_2_alg».proof.Defs
import proofs.«149646_j34445637714102_2_alg».proof.Proof.Gen.Kernel
import proofs.«149646_j34445637714102_2_alg».proof.Proof.Gen.KernelIdeal
import proofs.«149646_j34445637714102_2_alg».proof.Proof.Gen.ReferenceIdeal
import proofs.«149646_j34445637714102_2_alg».proof.Proof.Gen.Pre_finite_inputs
import proofs.«149646_j34445637714102_2_alg».proof.Proof.Claims
import proofs.«149646_j34445637714102_2_alg».proof.Proof.KArr0
import proofs.«149646_j34445637714102_2_alg».proof.Proof.KArr1

noncomputable section

namespace Cert.Proof

open Idealize.ShloMosaic Idealize.SL.Sem

/-- The certificate: the three frames, the (empty) list of idealization rewrites, and the equality of results. The
    kernel's value rests on what each region leaves in its arrays: the attention over K and V for the second region,
    the two halves of x·[Wk | Wv] for the first. -/
theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves,
    AttnClaims.algebraic (fun V c => Cert.KernelIdeal.AttnOut.final V c)
      (fun V c b s h => Cert.KernelIdeal.ProjOut.final_k V c b s h)
      (fun V c b s h => Cert.KernelIdeal.ProjOut.final_v V c b s h)⟩

end Cert.Proof

end
